-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x131072 : Shape := ⟨2, ![2, 131072]⟩
abbrev S128x256 : Shape := ⟨2, ![128, 256]⟩
abbrev S256 : Shape := ⟨1, ![256]⟩
abbrev S256x256 : Shape := ⟨2, ![256, 256]⟩
abbrev S512x1 : Shape := ⟨2, ![512, 1]⟩
abbrev S1 : Shape := ⟨1, ![1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S512x1 .f32) (main_arg13 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x1 .f32 := Host.absf main_arg12
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S512x1 .f32) (main_arg13 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S512x1 .f32) (main_arg13 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S8192x128 .f32) (main_arg1 : IVec S2x131072 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S512x1 .f32) (main_arg13 : FVec F S1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S8192x128 : Shape := ⟨2, ![8192, 128]⟩
abbrev S2x131072 : Shape := ⟨2, ![2, 131072]⟩
abbrev S128x256 : Shape := ⟨2, ![128, 256]⟩
abbrev S256 : Shape := ⟨1, ![256]⟩
abbrev S256x256 : Shape := ⟨2, ![256, 256]⟩
abbrev S512x1 : Shape := ⟨2, ![512, 1]⟩
abbrev S1 : Shape := ⟨1, ![1]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S1x256 : Shape := ⟨2, ![1, 256]⟩
abbrev S8192x256 : Shape := ⟨2, ![8192, 256]⟩
abbrev S2048x128 : Shape := ⟨2, ![2048, 128]⟩
abbrev S2048x256 : Shape := ⟨2, ![2048, 256]⟩
abbrev S131072x256 : Shape := ⟨2, ![131072, 256]⟩
abbrev S256x1 : Shape := ⟨2, ![256, 1]⟩
abbrev S1x1 : Shape := ⟨2, ![1, 1]⟩
abbrev S8192x1 : Shape := ⟨2, ![8192, 1]⟩
abbrev S2048x1 : Shape := ⟨2, ![2048, 1]⟩
abbrev S1x8192 : Shape := ⟨2, ![1, 8192]⟩
abbrev S8192x8192 : Shape := ⟨2, ![8192, 8192]⟩
abbrev S1x2048 : Shape := ⟨2, ![1, 2048]⟩
abbrev S2048x2048 : Shape := ⟨2, ![2048, 2048]⟩

abbrev nBuf : Space → Nat
  | .hbm => 57
  | .vmem => 33
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S512x1, .f32⟩
  | .hbm, ⟨13, _⟩ => ⟨S1, .f32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x128, .f32⟩
  | .hbm, ⟨27, _⟩ => ⟨S_, .f32⟩
  | .hbm, ⟨28, _⟩ => ⟨S8192x128, .f32⟩
  | .hbm, ⟨29, _⟩ => ⟨S131072x1, .i32⟩
  | .hbm, ⟨30, _⟩ => ⟨S8192x128, .f32⟩
  | .hbm, ⟨31, _⟩ => ⟨S1x256, .f32⟩
  | .hbm, ⟨32, _⟩ => ⟨S1x256, .f32⟩
  | .hbm, ⟨33, _⟩ => ⟨S8192x256, .f32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072x256, .f32⟩
  | .hbm, ⟨43, _⟩ => ⟨S_, .f32⟩
  | .hbm, ⟨44, _⟩ => ⟨S8192x256, .f32⟩
  | .hbm, ⟨45, _⟩ => ⟨S131072x1, .i32⟩
  | .hbm, ⟨46, _⟩ => ⟨S8192x256, .f32⟩
  | .hbm, ⟨47, _⟩ => ⟨S256x1, .f32⟩
  | .hbm, ⟨48, _⟩ => ⟨S256x1, .f32⟩
  | .hbm, ⟨49, _⟩ => ⟨S1x1, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S8192x1, .f32⟩
  | .hbm, ⟨54, _⟩ => ⟨S8192x1, .f32⟩
  | .hbm, ⟨55, _⟩ => ⟨S1x8192, .f32⟩
  | .hbm, ⟨56, _⟩ => ⟨S8192x8192, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x1, .f32⟩
  | .local _ .vmem, ⟨21, _⟩ => ⟨S256x1, .f32⟩
  | .local _ .vmem, ⟨22, _⟩ => ⟨S1x1, .f32⟩
  | .local _ .vmem, ⟨23, _⟩ => ⟨S2048x1, .f32⟩
  | .local _ .vmem, ⟨24, _⟩ => ⟨S2048x1, .f32⟩
  | .local _ .vmem, ⟨25, _⟩ => ⟨S2048x1, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | .local _ .vmem, ⟨29, _⟩ => ⟨S1x2048, .f32⟩
  | .local _ .vmem, ⟨30, _⟩ => ⟨S1x2048, .f32⟩
  | .local _ .vmem, ⟨31, _⟩ => ⟨S2048x2048, .f32⟩
  | .local _ .vmem, ⟨32, _⟩ => ⟨S2048x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33_0 : Ref sig .tc := ⟨.hbm, 53, rfl⟩
abbrev main_v33_1 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem11_1 : DmaSem sig := 24
abbrev cc1_sem12_0 : DmaSem sig := 25
abbrev cc1_sem12_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2048x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2048x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S8192x128 : S_.BroadcastsInDim S8192x128 (![] : Fin 0 → Fin S8192x128.rank)
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S2048x256_S2048x256_0_0 : ∀ a, (![0, 0] : Fin 2 → Nat) a + S2048x256.size a ≤ S2048x256.size a
  h_S2048x256 : 0 < S2048x256.numel
  bcast_S_S8192x256 : S_.BroadcastsInDim S8192x256 (![] : Fin 0 → Fin S8192x256.rank)
  slices_S512x1_S256x1_0_0 : S512x1.Slices ![0, 0] S256x1
  slices_S512x1_S256x1_256_0 : S512x1.Slices ![256, 0] S256x1
  shapeCasts_S1_S1x1 : S1.ShapeCasts S1x1
  shapeCasts_S2048x256_S2048x256 : S2048x256.ShapeCasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x1_S2048x1_0_0 : ∀ a, (![0, 0] : Fin 2 → Nat) a + S2048x1.size a ≤ S2048x1.size a
  h_S2048x1 : 0 < S2048x1.numel
  transposes_S8192x1_S1x8192_1_0 : S8192x1.Transposes [1, 0] S1x8192
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S8192x256.size a
  hwx0_6 : ∀ i : grid0.Coords, EltTy.bits .f32 = 32 ∨ (Rect.block (s := S8192x256) S2048x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S256x1.size a
  hwx1_8 : ∀ i : grid1.Coords, EltTy.bits .f32 = 32 ∨ (Rect.block (s := S256x1) S256x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .f32 = 32 ∨ (Rect.block (s := S256x1) S256x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048x1.size a ≤ S8192x1.size a
  hwx1_11 : ∀ i : grid1.Coords, EltTy.bits .f32 = 32 ∨ (Rect.block (s := S8192x1) S2048x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2048x1.size a ≤ S8192x1.size a
  hwx1_12 : ∀ i : grid1.Coords, EltTy.bits .f32 = 32 ∨ (Rect.block (s := S8192x1) S2048x1.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S8192x1.size a
  hwx2_0 : ∀ i : grid2.Coords, EltTy.bits .f32 = 32 ∨ (Rect.block (s := S8192x1) S2048x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x8192.size a
  hwx2_1 : ∀ i : grid2.Coords, EltTy.bits .f32 = 32 ∨ (Rect.block (s := S1x8192) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S8192x8192.size a
  hwx2_2 : ∀ i : grid2.Coords, EltTy.bits .f32 = 32 ∨ (Rect.block (s := S8192x8192) S2048x2048.size (cc2_transform_2 i) (hinb2_2 i)).WholeWords (EltTy.packing .f32)

variable [Facts₀]

def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S256x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v33_0) S2048x1.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v33_1) S2048x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v33_0) S2048x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x128 : Shape := ⟨2, ![8192, 128]⟩
abbrev S2x131072 : Shape := ⟨2, ![2, 131072]⟩
abbrev S128x256 : Shape := ⟨2, ![128, 256]⟩
abbrev S256 : Shape := ⟨1, ![256]⟩
abbrev S256x256 : Shape := ⟨2, ![256, 256]⟩
abbrev S512x1 : Shape := ⟨2, ![512, 1]⟩
abbrev S1 : Shape := ⟨1, ![1]⟩
abbrev S1x131072 : Shape := ⟨2, ![1, 131072]⟩
abbrev S131072 : Shape := ⟨1, ![131072]⟩
abbrev S_ : Shape := ⟨0, ![]⟩
abbrev S131072x1 : Shape := ⟨2, ![131072, 1]⟩
abbrev S131072x128 : Shape := ⟨2, ![131072, 128]⟩
abbrev S8192x256 : Shape := ⟨2, ![8192, 256]⟩
abbrev S1x256 : Shape := ⟨2, ![1, 256]⟩
abbrev S131072x256 : Shape := ⟨2, ![131072, 256]⟩
abbrev S256x1 : Shape := ⟨2, ![256, 1]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S512x1, .f32⟩
  | .hbm, ⟨13, _⟩ => ⟨S1, .f32⟩
  | .hbm, ⟨14, _⟩ => ⟨S1x131072, .i32⟩
  | .hbm, ⟨15, _⟩ => ⟨S131072, .i32⟩
  | .hbm, ⟨16, _⟩ => ⟨S1x131072, .i32⟩
  | .hbm, ⟨17, _⟩ => ⟨S131072, .i32⟩
  | .hbm, ⟨18, _⟩ => ⟨S_, .i32⟩
  | .hbm, ⟨19, _⟩ => ⟨S131072, .i32⟩
  | .hbm, ⟨20, _⟩ => ⟨S131072, .i1⟩
  | .hbm, ⟨21, _⟩ => ⟨S_, .i32⟩
  | .hbm, ⟨22, _⟩ => ⟨S131072, .i32⟩
  | .hbm, ⟨23, _⟩ => ⟨S131072, .i32⟩
  | .hbm, ⟨24, _⟩ => ⟨S131072, .i32⟩
  | .hbm, ⟨25, _⟩ => ⟨S131072x1, .i32⟩
  | .hbm, ⟨26, _⟩ => ⟨S131072x128, .f32⟩
  | .hbm, ⟨27, _⟩ => ⟨S_, .f32⟩
  | .hbm, ⟨28, _⟩ => ⟨S8192x128, .f32⟩
  | .hbm, ⟨29, _⟩ => ⟨S131072x1, .i32⟩
  | .hbm, ⟨30, _⟩ => ⟨S8192x128, .f32⟩
  | .hbm, ⟨31, _⟩ => ⟨S8192x128, .f32⟩
  | .hbm, ⟨32, _⟩ => ⟨S8192x256, .f32⟩
  | .hbm, ⟨33, _⟩ => ⟨S1x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S1x256, .f32⟩
  | .hbm, ⟨41, _⟩ => ⟨S8192x256, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .f32⟩
  | .hbm, ⟨46, _⟩ => ⟨S_, .i32⟩
  | .hbm, ⟨47, _⟩ => ⟨S131072, .i32⟩
  | .hbm, ⟨48, _⟩ => ⟨S131072, .i1⟩
  | .hbm, ⟨49, _⟩ => ⟨S_, .i32⟩
  | .hbm, ⟨50, _⟩ => ⟨S131072, .i32⟩
  | .hbm, ⟨51, _⟩ => ⟨S131072, .i32⟩
  | .hbm, ⟨52, _⟩ => ⟨S131072, .i32⟩
  | .hbm, ⟨53, _⟩ => ⟨S131072x1, .i32⟩
  | .hbm, ⟨54, _⟩ => ⟨S131072x256, .f32⟩
  | .hbm, ⟨55, _⟩ => ⟨S_, .f32⟩
  | .hbm, ⟨56, _⟩ => ⟨S8192x256, .f32⟩
  | .hbm, ⟨57, _⟩ => ⟨S131072x1, .i32⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S1x256, .f32⟩
  | .hbm, ⟨62, _⟩ => ⟨S8192x256, .f32⟩
  | .hbm, ⟨63, _⟩ => ⟨S8192x256, .f32⟩
  | .hbm, ⟨64, _⟩ => ⟨S_, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S1x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S1x256, .f32⟩
  | .hbm, ⟨76, _⟩ => ⟨S8192x256, .f32⟩
  | .hbm, ⟨77, _⟩ => ⟨S8192x256, .f32⟩
  | .hbm, ⟨78, _⟩ => ⟨S256x1, .f32⟩
  | .hbm, ⟨79, _⟩ => ⟨S8192x1, .f32⟩
  | .hbm, ⟨80, _⟩ => ⟨S256x1, .f32⟩
  | .hbm, ⟨81, _⟩ => ⟨S8192x1, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call3_cst : Ref sig .tc := ⟨.hbm, 71, rfl⟩
abbrev main_call3_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bcast_S_S8192x128 : S_.BroadcastsInDim S8192x128 (![] : Fin 0 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  shapeCasts_S1_S_ : S1.ShapeCasts S_
  bcast_S_S8192x8192 : S_.BroadcastsInDim S8192x8192 (![] : Fin 0 → Fin S8192x8192.rank)
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S8192x256_S256x1_S8192x1_1_0_0_1_n_n_wf : DotDims.WF S8192x256 S256x1 S8192x1 [1] [0] [0] [1] [] []

variable [Facts₀]

def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.KernelRun.lean ====
/-
  The idealized kernel's run with its result named.

  The program is three kernel launches among stretches of host operations. Its run is the chain of those segments from
  the launch memory: each stretch of host operations applies its operations' pure functions to the buffers, each launch
  leaves its output arrays at the fold of its grid points' write-backs and every other buffer as it found it. The
  generated frame follows that chain to show that the arguments end unchanged; here the same chain is followed once
  more with the result buffer kept in the post: after every weakly fair execution the result holds what the last
  launch's write-backs leave in its output array, `W6 m ρ c` at the result's reference.
-/
import proofs.«141162_j76184129896629_2_alg».proof.Proof.Gen.KernelIdeal.Frame

set_option maxRecDepth 16384

noncomputable section

namespace Cert.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what the
    last launch leaves in its output array and the argument arrays as launched. -/
theorem run_result : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.GinRun

end
-- ==== Proof.Glue.lean ====
/-
  The buffers each launch finds, named.

  Between the launches the program applies host operations; what a launch finds in one of its arrays is therefore the
  composition of those operations' pure functions over what the previous launch left, down to the launch memory. This
  module reads that composition off once per array each launch reads: an argument nobody wrote is the launch
  memory's; a reshaped bias, a slice of the edge weight and the transposed score column are one layout operation of an
  argument or of a launch's output; the neighbour aggregate is the scatter-add of the gathered rows, the same two
  operations (over the same index arrays, derived from the edge list in the same way) that the reference applies —
  it is kept as one opaque term and never opened.
-/
import proofs.«141162_j76184129896629_2_alg».proof.Proof.Gen.KernelIdeal.Frame
import proofs.«141162_j76184129896629_2_alg».proof.Proof.Gen.ReferenceIdeal.Read
import Idealize.ShloMosaic.Lib.StableHlo.Run

set_option maxRecDepth 16384

noncomputable section

namespace Cert.GinGlue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- Argument `b`'s launch contents on core `c`. -/
abbrev arg (c : Dev nD) (b : Ref sig .tc) : Buf (Elt Ideal) ((c : Thread nD τ).loc b) := m ((c : Thread nD τ).loc b)

/-! ## What the first launch finds -/

theorem V1_arg0 (c : Dev nD) : V1 m ρ c main_arg0 = arg m c main_arg0 := by
  show StableHlo.after hostOps0 (W0 m ρ c) (Proc.devRef .tc main_arg0) = _
  after_results <;> rfl
theorem V1_arg2 (c : Dev nD) : V1 m ρ c main_arg2 = arg m c main_arg2 := by
  show StableHlo.after hostOps0 (W0 m ρ c) (Proc.devRef .tc main_arg2) = _
  after_results <;> rfl
theorem V1_arg4 (c : Dev nD) : V1 m ρ c main_arg4 = arg m c main_arg4 := by
  show StableHlo.after hostOps0 (W0 m ρ c) (Proc.devRef .tc main_arg4) = _
  after_results <;> rfl
/-- The first bias as one row. -/
theorem V1_v14 (c : Dev nD) : V1 m ρ c main_v14 = shapeCast S1x256 (arg m c main_arg3) shapeCasts_S256_S1x256 := by
  show StableHlo.after hostOps0 (W0 m ρ c) (Proc.devRef .tc main_v14) = _
  after_results <;> rfl
/-- The second bias as one row. -/
theorem V1_v15 (c : Dev nD) : V1 m ρ c main_v15 = shapeCast S1x256 (arg m c main_arg5) shapeCasts_S256_S1x256 := by
  show StableHlo.after hostOps0 (W0 m ρ c) (Proc.devRef .tc main_v15) = _
  after_results <;> rfl
/-- The neighbour aggregate of the node features: the reference's own term of the same operations. -/
theorem V1_v13 (c : Dev nD) : V1 m ρ c main_v13
    = Cert.ReferenceIdeal.Read.val_main_v13 (F := Ideal) (arg m c main_arg0) (arg m c main_arg1) := by
  show StableHlo.after hostOps0 (W0 m ρ c) (Proc.devRef .tc main_v13) = _
  after_results <;> rfl

/-! ## What the first launch leaves for the second stretch of host operations -/

/-- A buffer the first launch does not stage and the first stretch does not write is the launch memory's. -/
theorem W2_arg6 (c : Dev nD) : W2 m ρ c (Proc.devRef .tc main_arg6) = arg m c main_arg6 :=
  (W2_of_ne m ρ c main_arg6 (by decide)).trans (by
    show StableHlo.after hostOps0 (W0 m ρ c) (Proc.devRef .tc main_arg6) = _
    after_results <;> rfl)
theorem W2_arg7 (c : Dev nD) : W2 m ρ c (Proc.devRef .tc main_arg7) = arg m c main_arg7 :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = arg m c main_arg8 :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = arg m c main_arg9 :=
  (W2_of_ne m ρ c main_arg9 (by decide)).trans (by
    show StableHlo.after hostOps0 (W0 m ρ c) (Proc.devRef .tc main_arg9) = _
    after_results <;> rfl)
theorem W2_arg10 (c : Dev nD) : W2 m ρ c (Proc.devRef .tc main_arg10) = arg m c main_arg10 :=
  (W2_of_ne m ρ c main_arg10 (by decide)).trans (by
    show StableHlo.after hostOps0 (W0 m ρ c) (Proc.devRef .tc main_arg10) = _
    after_results <;> rfl)
theorem W2_arg11 (c : Dev nD) : W2 m ρ c (Proc.devRef .tc main_arg11) = arg m c main_arg11 :=
  (W2_of_ne m ρ c main_arg11 (by decide)).trans (by
    show StableHlo.after hostOps0 (W0 m ρ c) (Proc.devRef .tc main_arg11) = _
    after_results <;> rfl)
theorem W2_arg12 (c : Dev nD) : W2 m ρ c (Proc.devRef .tc main_arg12) = arg m c main_arg12 :=
  (W2_of_ne m ρ c main_arg12 (by decide)).trans (by
    show StableHlo.after hostOps0 (W0 m ρ c) (Proc.devRef .tc main_arg12) = _
    after_results <;> rfl)
theorem W2_arg13 (c : Dev nD) : W2 m ρ c (Proc.devRef .tc main_arg13) = arg m c main_arg13 :=
  (W2_of_ne m ρ c main_arg13 (by decide)).trans (by
    show StableHlo.after hostOps0 (W0 m ρ c) (Proc.devRef .tc main_arg13) = _
    after_results <;> rfl)
/-- The source indices of the edges, as the first stretch computed them from the edge list. -/
theorem W2_v1 (c : Dev nD) : W2 m ρ c (Proc.devRef .tc main_v1)
    = Cert.ReferenceIdeal.Read.val_main_v1 (F := Ideal) (arg m c main_arg1) :=
  (W2_of_ne m ρ c main_v1 (by decide)).trans (by
    show StableHlo.after hostOps0 (W0 m ρ c) (Proc.devRef .tc main_v1) = _
    after_results <;> rfl)
/-- The destination indices of the edges. -/
theorem W2_v3 (c : Dev nD) : W2 m ρ c (Proc.devRef .tc main_v3)
    = Cert.ReferenceIdeal.Read.val_main_v3 (F := Ideal) (arg m c main_arg1) :=
  (W2_of_ne m ρ c main_v3 (by decide)).trans (by
    show StableHlo.after hostOps0 (W0 m ρ c) (Proc.devRef .tc main_v3) = _
    after_results <;> rfl)
/-- The first launch's output array. -/
theorem W2_v16 (c : Dev nD) : W2 m ρ c (Proc.devRef .tc main_v16) = (dat0 (V1 m ρ) c).arrAt 6 cfg0.N :=
  W2_arr m ρ c 6

/-! ## What the second launch finds -/

theorem V3_v16 (c : Dev nD) : V3 m ρ c main_v16 = (dat0 (V1 m ρ) c).arrAt 6 cfg0.N := by
  show StableHlo.after hostOps1 (W2 m ρ c) (Proc.devRef .tc main_v16) = _
  after_results
  exact W2_v16 m ρ c
theorem V3_arg6 (c : Dev nD) : V3 m ρ c main_arg6 = arg m c main_arg6 := by
  show StableHlo.after hostOps1 (W2 m ρ c) (Proc.devRef .tc main_arg6) = _
  after_results
  exact W2_arg6 m ρ c
theorem V3_arg8 (c : Dev nD) : V3 m ρ c main_arg8 = arg m c main_arg8 := by
  show StableHlo.after hostOps1 (W2 m ρ c) (Proc.devRef .tc main_arg8) = _
  after_results
  exact W2_arg8 m ρ c
theorem V3_arg10 (c : Dev nD) : V3 m ρ c main_arg10 = arg m c main_arg10 := by
  show StableHlo.after hostOps1 (W2 m ρ c) (Proc.devRef .tc main_arg10) = _
  after_results
  exact W2_arg10 m ρ c
theorem V3_v30 (c : Dev nD) : V3 m ρ c main_v30 = shapeCast S1x256 (arg m c main_arg7) shapeCasts_S256_S1x256 := by
  show StableHlo.after hostOps1 (W2 m ρ c) (Proc.devRef .tc main_v30) = _
  after_results
  rw [W2_arg7]
  rfl
theorem V3_v31 (c : Dev nD) : V3 m ρ c main_v31 = shapeCast S1x256 (arg m c main_arg9) shapeCasts_S256_S1x256 := by
  show StableHlo.after hostOps1 (W2 m ρ c) (Proc.devRef .tc main_v31) = _
  after_results
  rw [W2_arg9]
  rfl
theorem V3_v32 (c : Dev nD) : V3 m ρ c main_v32 = shapeCast S1x256 (arg m c main_arg11) shapeCasts_S256_S1x256 := by
  show StableHlo.after hostOps1 (W2 m ρ c) (Proc.devRef .tc main_v32) = _
  after_results
  rw [W2_arg11]
  rfl
/-- The first half of the edge weight. -/
theorem V3_v27 (c : Dev nD) : V3 m ρ c main_v27
    = extractStridedSlice S256x1 ![0, 0] (arg m c main_arg12) slices_S512x1_S256x1_0_0 := by
  show StableHlo.after hostOps1 (W2 m ρ c) (Proc.devRef .tc main_v27) = _
  after_results
  rw [W2_arg12]
/-- The second half of the edge weight. -/
theorem V3_v28 (c : Dev nD) : V3 m ρ c main_v28
    = extractStridedSlice S256x1 ![256, 0] (arg m c main_arg12) slices_S512x1_S256x1_256_0 := by
  show StableHlo.after hostOps1 (W2 m ρ c) (Proc.devRef .tc main_v28) = _
  after_results
  rw [W2_arg12]
/-- The edge bias as a [1, 1] array. -/
theorem V3_v29 (c : Dev nD) : V3 m ρ c main_v29 = shapeCast S1x1 (arg m c main_arg13) shapeCasts_S1_S1x1 := by
  show StableHlo.after hostOps1 (W2 m ρ c) (Proc.devRef .tc main_v29) = _
  after_results
  rw [W2_arg13]
  rfl
set_option maxHeartbeats 1000000 in
/-- The neighbour aggregate of the first layer's embedding `X` (whatever the first launch left): the reference's
    scatter-add of the gather of `X`, over the reference's own index terms. -/
theorem V3_v26 (c : Dev nD) : (V3 m ρ c main_v26 : FVec Ideal Cert.ReferenceIdeal.S8192x256 .f32)
    = Host.scatterAdd (F := Ideal) (φ := .f32) Cert.ReferenceIdeal.scatter_S8192x256_S131072x1_S131072x256_1_0_0_1
        (Cert.ReferenceIdeal.Read.val_main_v32 (F := Ideal))
        (Cert.ReferenceIdeal.Read.val_main_v33 (F := Ideal) (arg m c main_arg1))
        (Host.gather (α := EReal) Cert.ReferenceIdeal.gather_S8192x256_S131072x1_S131072x256_1_0_n_n_0_1_1256
          ((dat0 (V1 m ρ) c).arrAt 6 cfg0.N : FVec Ideal Cert.ReferenceIdeal.S8192x256 .f32)
          (Cert.ReferenceIdeal.Read.val_main_v30 (F := Ideal) (arg m c main_arg1))) := by
  show StableHlo.after hostOps1 (W2 m ρ c) (Proc.devRef .tc main_v26) = _
  after_results_simp
  rw [W2_v1, W2_v3, W2_v16]
  rfl

/-! ## What the third launch finds, and the result -/

/-- The first score column is the second launch's first output. -/
theorem V5_li (c : Dev nD) : V5 m ρ c main_v33_0 = (dat1 (V3 m ρ) c).arrAt 11 cfg1.N := by
  show StableHlo.after hostOps2 (W4 m ρ c) (Proc.devRef .tc main_v33_0) = _
  after_results
  exact W4_arr m ρ c 11
/-- The score row is the transpose of the second launch's second output. -/
theorem V5_lj (c : Dev nD) : V5 m ρ c main_v34
    = transpose S1x8192 [1, 0] ((dat1 (V3 m ρ) c).arrAt 12 cfg1.N) transposes_S8192x1_S1x8192_1_0 := by
  show StableHlo.after hostOps2 (W4 m ρ c) (Proc.devRef .tc main_v34) = _
  after_results
  rw [show W4 m ρ c (Proc.devRef .tc main_v33_1) = (dat1 (V3 m ρ) c).arrAt 12 cfg1.N from W4_arr m ρ c 12]
/-- The result buffer is the third launch's output array. -/
theorem W6_result (c : Dev nD) : W6 m ρ c (Proc.devRef .tc main_v35) = (dat2 (V5 m ρ) c).arrAt 2 cfg2.N :=
  W6_arr m ρ c 2

end Cert.GinGlue

end
-- ==== Proof.Spec.lean ====
/-
  What both programs compute, written once as functions on the extended reals.

  A dense layer of one row `h` is `dense h w b q = (∑ k, h k * w k q) + b q`; the rectifier `relu x = max x 0` keeps the
  programs' own zero word. One graph-isomorphism layer of a row is the two-layer perceptron `mlp` of the row
  `x r + agg r` (the node's features plus the sum of its in-neighbours' features). The edge score of the pair (i, j)
  is `li i + lj j` (plus the bias), where `li` and `lj` are the products of the last node embedding with the two
  halves of the edge weight.

  The arrays are functions of rank-2 indices of literal extents; `mat`, `rowSum`, `vec1` read them by coordinates.
-/
import Idealize.ShloMosaic.Lib.ValueIdx
import Idealize.ShloMosaic.PureOps.Ideal.Laws

noncomputable section

open scoped BigOperators

namespace Cert.GinSpec

open Idealize.ShloMosaic Idealize.ShloMosaic.ValueIdx

/-- The rank-2 shape [a, b]. -/
abbrev Sh (a b : Nat) : Shape := ⟨2, ![a, b]⟩

/-- The zero both programs take the maximum with: the same 32-bit word on both sides, never evaluated. -/
abbrev zero32 : EReal := Ideal.ofBits .f32 0x00000000#32

/-- The rectifier. -/
def relu (x : EReal) : EReal := max x zero32

/-- One output coordinate of a dense layer applied to the row `h`: the inner product with column `q` of `w`, plus the bias. -/
def dense {K M : Nat} (h : Fin K → EReal) (w : Fin K → Fin M → EReal) (b : Fin M → EReal) (q : Fin M) : EReal :=
  (∑ k : Fin K, h k * w k q) + b q

/-- The two-layer perceptron of a row, rectified after each layer. -/
def mlp {K : Nat} (h : Fin K → EReal) (wa : Fin K → Fin 256 → EReal) (ba : Fin 256 → EReal)
    (wb : Fin 256 → Fin 256 → EReal) (bb : Fin 256 → EReal) (q : Fin 256) : EReal :=
  relu (dense (fun k => relu (dense h wa ba k)) wb bb q)

/-- A rank-2 array by its two coordinates. -/
abbrev mat {a b : Nat} (w : (Sh a b).Idx → EReal) : Fin a → Fin b → EReal := fun j k => w (ix2 j k)

/-- Row `r` of the entrywise sum of two arrays. -/
abbrev rowSum {n K : Nat} (X A : (Sh n K).Idx → EReal) (r : Fin n) : Fin K → EReal := fun j => X (ix2 r j) + A (ix2 r j)

/-- A rank-1 array by its coordinate. -/
abbrev vec1 {n : Nat} (b : (⟨1, ![n]⟩ : Shape).Idx → EReal) : Fin n → EReal := fun k => b (ix1 k)

/-- The single row of a [1, n] array by its column. -/
abbrev row0 {n : Nat} (b : (Sh 1 n).Idx → EReal) : Fin n → EReal := fun k => b (ix2 (0 : Fin 1) k)

/-- The single column of an [n, 1] array by its row. -/
abbrev col0 {n : Nat} (w : (Sh n 1).Idx → EReal) : Fin n → EReal := fun k => w (ix2 k (0 : Fin 1))

/-- The node embedding after one layer: row `r`, column `q`. -/
def layerAt {n K : Nat} (X A : (Sh n K).Idx → EReal) (wa : Fin K → Fin 256 → EReal) (ba : Fin 256 → EReal)
    (wb : Fin 256 → Fin 256 → EReal) (bb : Fin 256 → EReal) (r : Fin n) (q : Fin 256) : EReal :=
  mlp (rowSum X A r) wa ba wb bb q

/-- The output projection of the second layer's embedding: row `r`, column `q`. -/
def projAt {n : Nat} (X A : (Sh n 256).Idx → EReal) (wa : Fin 256 → Fin 256 → EReal) (ba : Fin 256 → EReal)
    (wb : Fin 256 → Fin 256 → EReal) (bb : Fin 256 → EReal) (wo : Fin 256 → Fin 256 → EReal) (bo : Fin 256 → EReal)
    (r : Fin n) (q : Fin 256) : EReal :=
  dense (layerAt X A wa ba wb bb r) wo bo q

/-- The projected row times one half of the edge weight (a column vector `we`). -/
def scoreAt {n : Nat} (X A : (Sh n 256).Idx → EReal) (wa : Fin 256 → Fin 256 → EReal) (ba : Fin 256 → EReal)
    (wb : Fin 256 → Fin 256 → EReal) (bb : Fin 256 → EReal) (wo : Fin 256 → Fin 256 → EReal) (bo : Fin 256 → EReal)
    (we : Fin 256 → EReal) (r : Fin n) : EReal :=
  ∑ q : Fin 256, projAt X A wa ba wb bb wo bo r q * we q

/-- Addition on the extended reals is commutative and associative, so the bias may be added to the first summand
    before the second one joins: `(a + b) + c = (a + c) + b`. No finiteness is needed. -/
theorem add_bias_comm (a b c : EReal) : (a + b) + c = (a + c) + b := add_right_comm a b c

end Cert.GinSpec

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.Payload.lean ====
/-
  The kernel bodies' stored values, read at an index, at the exact (extended-real) values.

  Every body of the three kernels stores a pure function of the blocks it loads. At the exact values a truncation
  to a narrower format is the identity, a cast to the same shape is the identity, a broadcast of a [1, n] row over
  the rows reads the row at the column, a broadcast of an [n, 1] column over the columns reads the column at the
  row, and a matrix product into a zero accumulator is, at (r, q), the plain sum over k of lhs (r, k) * rhs (k, q).
  So one dense layer over a block, product plus broadcast bias, is at (p, q) the specification's `dense` of row p
  of the left operand; rectified (the maximum with the programs' own zero word) it is `relu` of that. Composing:
  region 0's block at (p, q) is the two-layer perceptron of row p of x + agg; region 1's intermediate is the
  perceptron followed by a third dense layer, and its two outputs are the products of that with the two halves of
  the edge weight (the first plus the bias, the one entry of a [1, 1] array); region 2's block at (p, q) is the
  column's entry at p plus the row's entry at q.
-/
import proofs.«141162_j76184129896629_2_alg».proof.Proof.Gen.KernelIdeal.Skeleton
import proofs.«141162_j76184129896629_2_alg».proof.Proof.Spec
import proofs.«141162_j76184129896629_2_alg».proof.Proof.LibPlainDot
import Idealize.ShloMosaic.Lib.Pipeline.Value
import Idealize.ShloMosaic.Lib.ValueLayout
noncomputable section
open scoped BigOperators
namespace Cert.GinPay
open Cert.KernelIdeal Cert.KernelIdeal.Gen Cert.GinSpec Idealize.ShloMosaic Idealize.ShloMosaic.ValueIdx

/-! ## The three products' dimension numbers are plain ones -/

/-- The first layer's first product is a plain [2048, 128] by [128, 256] product. -/
theorem d128_eq : dot_S2048x128_S128x256_S2048x256_1_0_0_1_n_n = DotDims.plain 2048 128 256 := rfl
/-- Every other layer product is a plain [2048, 256] by [256, 256] product. -/
theorem d256_eq : dot_S2048x256_S256x256_S2048x256_1_0_0_1_n_n = DotDims.plain 2048 256 256 := rfl
/-- The two score products are plain [2048, 256] by [256, 1] products. -/
theorem d1_eq : dot_S2048x256_S256x1_S2048x1_1_0_0_1_n_n = DotDims.plain 2048 256 1 := rfl

/-! ## Layout operations at an index -/

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1, 1]` array, extracted at position (0, 0), is its value at the index (0, 0). -/
theorem extractAt_11 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-! ## One dense layer over a block -/

/-- The product of a block `h` with a weight `w` into a zero accumulator, plus the bias row `b` broadcast over the
    rows, is at (p, q) the dense layer of row `p` of `h`. -/
theorem dense_block {M K : Nat} (d : DotDims ⟨2, ![M, K]⟩ ⟨2, ![K, 256]⟩ ⟨2, ![M, 256]⟩) (hd : d = DotDims.plain M K 256)
    (h : FVec Ideal ⟨2, ![M, K]⟩ .bf16) (w : FVec Ideal ⟨2, ![K, 256]⟩ .bf16) (b : FVec Ideal ⟨2, ![1, 256]⟩ .f32)
    (hb : (⟨2, ![1, 256]⟩ : Shape).Broadcasts ⟨2, ![M, 256]⟩) (p : Fin M) (q : Fin 256) :
    addf (matmul d none h w (constant ⟨2, ![M, 256]⟩ .f32 0x00000000#32)) (broadcastTo ⟨2, ![M, 256]⟩ b hb) (ix2 p q)
      = dense (fun k => h (ix2 p k)) (mat w) (row0 b) q := by
  subst hd
  show FloatOps.matmul (DotDims.plain M K 256) none h w (constant ⟨2, ![M, 256]⟩ .f32 0x00000000#32) (ix2 p q)
      + broadcastTo ⟨2, ![M, 256]⟩ b hb (ix2 p q) = _
  rw [PlainDot.matmul_zero_apply, broadcastTo_1b_ab_apply]
  rfl

/-- The same layer rectified: the maximum with the zero word broadcast over the block. -/
theorem relu_dense_block {M K : Nat} (d : DotDims ⟨2, ![M, K]⟩ ⟨2, ![K, 256]⟩ ⟨2, ![M, 256]⟩) (hd : d = DotDims.plain M K 256)
    (h : FVec Ideal ⟨2, ![M, K]⟩ .bf16) (w : FVec Ideal ⟨2, ![K, 256]⟩ .bf16) (b : FVec Ideal ⟨2, ![1, 256]⟩ .f32)
    (hb : (⟨2, ![1, 256]⟩ : Shape).Broadcasts ⟨2, ![M, 256]⟩) (p : Fin M) (q : Fin 256) :
    maximumf (addf (matmul d none h w (constant ⟨2, ![M, 256]⟩ .f32 0x00000000#32)) (broadcastTo ⟨2, ![M, 256]⟩ b hb))
        (broadcast ⟨2, ![M, 256]⟩ (Scalar.ofBits (F := Ideal) .f32 0x00000000#32)) (ix2 p q)
      = relu (dense (fun k => h (ix2 p k)) (mat w) (row0 b) q) :=
  congrArg relu (dense_block d hd h w b hb p q)

/-! ## The payloads -/

/-- Region 0 (one row block of the first layer): the stored block at (p, q) is the perceptron of row p of x + agg. -/
theorem pay0_at (v0 v1 : Vec Ideal S2048x128 .f32) (v5 : Vec Ideal S128x256 .f32) (v8 : Vec Ideal S1x256 .f32)
    (v15 : Vec Ideal S256x256 .f32) (v18 : Vec Ideal S1x256 .f32) (p : Fin 2048) (q : Fin 256) :
    k0_pay1 (F := Ideal) v0 v1 v5 v8 v15 v18 (ix2 p q) = layerAt v0 v1 (mat v5) (row0 v8) (mat v15) (row0 v18) p q := by
  unfold k0_pay1
  simp only [shapeCast_self]
  refine (relu_dense_block _ d256_eq _ _ _ _ p q).trans ?_
  refine congrArg relu ?_
  refine congrArg (fun f => dense f (mat v15) (row0 v18) q) (funext fun k => ?_)
  exact relu_dense_block _ d128_eq _ _ _ _ p k

/-- Region 1: the projected second-layer embedding of the row block (the value both score products read) at (p, q). -/
theorem pay1_proj_at (v0 v2 : Vec Ideal S2048x256 .f32) (v6 : Vec Ideal S256x256 .f32) (v9 : Vec Ideal S1x256 .f32)
    (v16 : Vec Ideal S256x256 .f32) (v19 : Vec Ideal S1x256 .f32) (v26 : Vec Ideal S256x256 .f32) (v29 : Vec Ideal S1x256 .f32)
    (p : Fin 2048) (q : Fin 256) :
    k1_pay3 (F := Ideal) v0 v2 v6 v9 v16 v19 v26 v29 (ix2 p q)
      = projAt v0 v2 (mat v6) (row0 v9) (mat v16) (row0 v19) (mat v26) (row0 v29) p q := by
  unfold k1_pay3
  simp only [shapeCast_self]
  refine (dense_block _ d256_eq _ _ _ _ p q).trans ?_
  refine congrArg (fun f => dense f (mat v26) (row0 v29) q) (funext fun k => ?_)
  refine (relu_dense_block _ d256_eq _ _ _ _ p k).trans ?_
  refine congrArg relu ?_
  refine congrArg (fun f => dense f (mat v16) (row0 v19) k) (funext fun j => ?_)
  exact relu_dense_block _ d256_eq _ _ _ _ p j

/-- Region 1's first output: the product with the first half of the edge weight, plus the bias. -/
theorem pay1_li_at (v33 : FVec Ideal S2048x256 .bf16) (v35 : FVec Ideal S256x1 .f32) (v41 : Vec Ideal S1x1 .f32) (p : Fin 2048) :
    k1_pay1 (F := Ideal) v33 v35 v41 (ix2 p (0 : Fin 1))
      = (∑ q : Fin 256, v33 (ix2 p q) * v35 (ix2 q (0 : Fin 1))) + v41 (ix2 (0 : Fin 1) (0 : Fin 1)) := by
  unfold k1_pay1
  show FloatOps.matmul dot_S2048x256_S256x1_S2048x1_1_0_0_1_n_n none v33 _ (constant S2048x1 .f32 0x00000000#32) (ix2 p (0 : Fin 1))
      + extractAt ![0, 0] v41 _ = _
  rw [d1_eq, PlainDot.matmul_zero_apply, extractAt_11]
  rfl

/-- Region 1's second output: the product with the second half of the edge weight. -/
theorem pay1_lj_at (v33 : FVec Ideal S2048x256 .bf16) (v37 : Vec Ideal S256x1 .f32) (p : Fin 2048) :
    k1_pay2 (F := Ideal) v33 v37 (ix2 p (0 : Fin 1)) = ∑ q : Fin 256, v33 (ix2 p q) * v37 (ix2 q (0 : Fin 1)) := by
  unfold k1_pay2
  simp only [shapeCast_self]
  show FloatOps.matmul dot_S2048x256_S256x1_S2048x1_1_0_0_1_n_n none v33 _ (constant S2048x1 .f32 0x00000000#32) (ix2 p (0 : Fin 1)) = _
  rw [d1_eq, PlainDot.matmul_zero_apply]
  rfl

/-- A same-shape cast is the identity. -/
theorem pay1_cast (v34 : Vec Ideal S256x1 .f32) : k1_pay4 (F := Ideal) v34 = v34 := by
  unfold k1_pay4
  exact shapeCast_self v34 _

/-- Region 2: the column block plus the row block, broadcast against each other. -/
theorem pay2_at (v0 : Vec Ideal S2048x1 .f32) (v2 : Vec Ideal S1x2048 .f32) (p q : Fin 2048) :
    k2_pay1 (F := Ideal) v0 v2 (ix2 p q) = v0 (ix2 p (0 : Fin 1)) + v2 (ix2 (0 : Fin 1) q) := by
  unfold k2_pay1
  simp only [shapeCast_self]
  show broadcastTo S2048x2048 v0 _ (ix2 p q) + broadcastTo S2048x2048 v2 _ (ix2 p q) = _
  rw [broadcastTo_a1_ab_apply, broadcastTo_1b_ab_apply]

end Cert.GinPay

end
-- ==== Proof.Region0.lean ====
/-
  The first launch (one graph-isomorphism layer), from row blocks to the whole array.

  The launch's grid has four points; point `t` reads rows [2048 t, 2048 t + 2048) of the node features `x` and of their
  aggregate `agg`, the two weight matrices and the two bias rows whole, and writes rows [2048 t, 2048 t + 2048) of the
  output. The stored block at (p, q) is the two-layer perceptron of row p of `x + agg` (the payload lemma), so what
  point `t` writes back is block `t` of ONE whole-array function `G0`: row r, column q of the output is
  `mlp (x r + agg r) wa ba wb bb q`. The four row blocks cover the array, hence after the launch the output array IS `G0`.
-/
import proofs.«141162_j76184129896629_2_alg».proof.Proof.Gen.KernelIdeal.Frame
import proofs.«141162_j76184129896629_2_alg».proof.Proof.Spec
import proofs.«141162_j76184129896629_2_alg».proof.Proof.Payload
import Idealize.ShloMosaic.Lib.Pipeline.Value
import Idealize.ShloMosaic.Lib.ValueIdx

set_option maxRecDepth 16384

noncomputable section

open scoped BigOperators

namespace Cert.GinRegion0

open Cert.KernelIdeal Cert.KernelIdeal.Gen Cert.GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-2 rectangle. -/
theorem hz : (![0, 0] : Fin 2 → Nat) = fun _ => 0 := funext fun a => by fin_cases a <;> rfl

/-- The first layer's embedding as one function of the arrays the launch reads. -/
def G0 (X A : S8192x128.Idx → EReal) (wa : S128x256.Idx → EReal) (ba : S1x256.Idx → EReal)
    (wb : S256x256.Idx → EReal) (bb : S1x256.Idx → EReal) : S8192x256.Idx → EReal :=
  fun i => layerAt (n := 8192) (K := 128) X A (mat wa) (row0 ba) (mat wb) (row0 bb) (i 0 : Fin 8192) (i 1 : Fin 256)

/-- How the windows' block indices move over the grid: the two row-blocked inputs move with the output along the rows; the
    weights and biases are fetched whole at block (0, 0); the output has four row blocks and one column block. -/
theorem idx_facts0 : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 3 ∧ win0_6.index t (1 : Fin 2) = 0 :=
  (by decide +kernel : ∀ t : Fin grid0.N, _)

/-- Each of the four row blocks of the output is some grid point's. -/
theorem idx_onto0 : ∀ (q0 : Fin 4), ∃ t : Fin cfg0.N, win0_6.index t = ![q0.val, 0] :=
  (by decide +kernel : ∀ (q0 : Fin 4), ∃ t : Fin grid0.N, win0_6.index t = ![q0.val, 0])

/-- What grid point `t` writes back is block `t` of the layer's embedding `G0` of the arrays the launch reads: row `p` of
    the block is the perceptron of row `2048·(block index) + p` of `x + agg`, with the whole weights and biases. -/
theorem flushed0 (c : Dev nD) (t : Fin cfg0.N) :
    (dat0 V c).flushed 6 t = ((cfg0.win 6).blk t).view.read (Elt Ideal)
      (G0 (V c main_arg0) (V c main_v13) (V c main_arg2) (V c main_v14) (V c main_arg4) (V c main_v15)) := by
  show (cfg0.win 6).cut (grid0.coords t) ((dat0 V c).after 6 t) = _
  rw [after0_6]
  unfold out0_6
  rw [View.canon_unit_zero hz]
  simp only [View.ld_unit_zero (S := S2048x128) hz, View.ld_unit_zero (S := S128x256) hz, View.ld_unit_zero (S := S1x256) hz,
    View.ld_unit_zero (S := S256x256) hz]
  obtain ⟨e0, e1, e2, e3, e4, e5, e6, e7, e8, e9, e10, e11, e12, e13⟩ := idx_facts0 t
  funext j
  obtain ⟨p, q, rfl⟩ : ∃ (p : Fin 2048) (q : Fin 256), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = G0 (V c main_arg0) (V c main_v13) (V c main_arg2) (V c main_v14) (V c main_arg4) (V c main_v15) (((cfg0.win 6).blk t).view.emb (ix2 p q))
  rw [Cert.GinPay.pay0_at]
  unfold G0 layerAt
  have hrow : rowSum (iblk0 V c 0 t) (iblk0 V c 1 t) p
      = rowSum (n := 8192) (K := 128) (V c main_arg0) (V c main_v13) ((((cfg0.win 6).blk t).view.emb (ix2 p q)) 0 : Fin 8192) := by
    funext k
    have h0 : iblk0 V c 0 t (ix2 p k) = V c main_arg0 (ix2 ((((cfg0.win 6).blk t).view.emb (ix2 p q)) 0 : Fin 8192) k) := by
      show V c main_arg0 (((cfg0.win 0).blk t).view.emb (ix2 p k)) = _
      refine congrArg _ (funext fun a => Fin.ext ?_)
      match a with
      | ⟨0, _⟩ => show win0_0.index t (0 : Fin 2) * 2048 + 1 * p.val = win0_6.index t (0 : Fin 2) * 2048 + 1 * p.val; omega
      | ⟨1, _⟩ => show win0_0.index t (1 : Fin 2) * 128 + 1 * k.val = k.val; omega
    have h1 : iblk0 V c 1 t (ix2 p k) = V c main_v13 (ix2 ((((cfg0.win 6).blk t).view.emb (ix2 p q)) 0 : Fin 8192) k) := by
      show V c main_v13 (((cfg0.win 1).blk t).view.emb (ix2 p k)) = _
      refine congrArg _ (funext fun a => Fin.ext ?_)
      match a with
      | ⟨0, _⟩ => show win0_1.index t (0 : Fin 2) * 2048 + 1 * p.val = win0_6.index t (0 : Fin 2) * 2048 + 1 * p.val; omega
      | ⟨1, _⟩ => show win0_1.index t (1 : Fin 2) * 128 + 1 * k.val = k.val; omega
    exact congrArg₂ (fun a b : EReal => a + b) h0 h1
  have hwa : mat (iblk0 V c 2 t) = mat (a := 128) (b := 256) (V c main_arg2) := by
    funext k l
    show V c main_arg2 (((cfg0.win 2).blk t).view.emb (ix2 k l)) = V c main_arg2 (ix2 k l)
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * l.val = l.val; omega
  have hba : row0 (iblk0 V c 3 t) = row0 (n := 256) (V c main_v14) := by
    funext l
    show V c main_v14 (((cfg0.win 3).blk t).view.emb (ix2 (0 : Fin 1) l)) = V c main_v14 (ix2 (0 : Fin 1) l)
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * l.val = l.val; omega
  have hwb : mat (iblk0 V c 4 t) = mat (a := 256) (b := 256) (V c main_arg4) := by
    funext k l
    show V c main_arg4 (((cfg0.win 4).blk t).view.emb (ix2 k l)) = V c main_arg4 (ix2 k l)
    refine congrArg _ (funext fun a => Fin.ext ?_)
    match a with
    | ⟨0, _⟩ => show win0_4.index t (0 : Fin 2) * 256 + 1 * k.val = k.val; omega
    | ⟨1, _⟩ => show win0_4.index t (1 : Fin 2) * 256 + 1 * l.val = l.val; omega
  have hbb : row0 (iblk0 V c 5 t) = row0 (n := 256) (V c main_v15) := by
    funext l
    show V c main_v15 (((cfg0.win 5).blk t).view.emb (ix2 (0 : Fin 1) l)) = V c main_v15 (ix2 (0 : Fin 1) l)
    refine congrArg _ (funext fun a => Fin.ext ?_)
    match a with
    | ⟨0, _⟩ => show win0_5.index t (0 : Fin 2) * 1 + 1 * 0 = 0; omega
    | ⟨1, _⟩ => show win0_5.index t (1 : Fin 2) * 256 + 1 * l.val = l.val; omega
  have hq : ((((cfg0.win 6).blk t).view.emb (ix2 p q)) 1 : Fin 256) = q := by
    apply Fin.ext
    show win0_6.index t (1 : Fin 2) * 256 + 1 * q.val = q.val
    omega
  rw [hrow, hwa, hba, hwb, hbb, hq]

/-- An index is in point `t`'s output block iff each coordinate is in the block's range. -/
theorem mem_blk0 (t : Fin cfg0.N) (i : S8192x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v16).slice (win0_6.rect t)).set ↔ _
  rw [View.set_slice_whole, Rect.mem_set_unit]
  exact Iff.rfl

/-- The output blocks cover the array: row `r` is in row block `r / 2048`. -/
theorem cover0 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  obtain ⟨t, ht⟩ := idx_onto0 ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

/-- After the launch the output array holds the layer's embedding of the arrays the launch reads. -/
theorem final0 (c : Dev nD) : (dat0 V c).arrAt 6 cfg0.N
      = G0 (V c main_arg0) (V c main_v13) (V c main_arg2) (V c main_v14) (V c main_arg4) (V c main_v15) :=
  (dat0 V c).arrAt_eq_of_cover 6 _ (fun t _ => flushed0 V c t) cover0

end Cert.GinRegion0
end
-- ==== Proof.Region1.lean ====
/-
  The second launch (the second graph-isomorphism layer, its output projection and the two edge-score products), from
  row blocks to the whole arrays.

  The launch's grid has four points; point `t` reads rows [2048 t, 2048 t + 2048) of the first layer's embedding `h` and
  of its aggregate `agg`, the three weight matrices, the three bias rows, the two halves of the edge weight and the one
  edge bias whole, and writes rows [2048 t, 2048 t + 2048) of two columns. Row p of the block's intermediate value is the
  output projection of the two-layer perceptron of row p of `h + agg`; the first stored column at p is its inner product
  with the first half of the edge weight plus the bias, the second stored column at p its inner product with the second
  half (the payload lemmas). So what point `t` writes back is block `t` of two whole-array functions `G1li` and `G1lj`:
  row r of the first is `scoreAt … wi r + be`, row r of the second is `scoreAt … wj r`. The four row blocks cover each
  column, hence after the launch the two output arrays ARE `G1li` and `G1lj`.
-/
import proofs.«141162_j76184129896629_2_alg».proof.Proof.Gen.KernelIdeal.Frame
import proofs.«141162_j76184129896629_2_alg».proof.Proof.Spec
import proofs.«141162_j76184129896629_2_alg».proof.Proof.Payload
import Idealize.ShloMosaic.Lib.Pipeline.Value
import Idealize.ShloMosaic.Lib.ValueIdx

set_option maxRecDepth 16384

noncomputable section

open scoped BigOperators

namespace Cert.GinRegion1

open Cert.KernelIdeal Cert.KernelIdeal.Gen Cert.GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-2 rectangle. -/
theorem hz : (![0, 0] : Fin 2 → Nat) = fun _ => 0 := funext fun a => by fin_cases a <;> rfl

/-- The first score column as one function of the arrays the launch reads: row `r` is the projected second-layer
    embedding of row `r` times the first half of the edge weight, plus the edge bias. -/
def G1li (X A : S8192x256.Idx → EReal) (wa : S256x256.Idx → EReal) (ba : S1x256.Idx → EReal) (wb : S256x256.Idx → EReal)
    (bb : S1x256.Idx → EReal) (wo : S256x256.Idx → EReal) (bo : S1x256.Idx → EReal) (wi : S256x1.Idx → EReal) (be : S1x1.Idx → EReal) :
    S8192x1.Idx → EReal :=
  fun i => scoreAt (n := 8192) X A (mat wa) (row0 ba) (mat wb) (row0 bb) (mat wo) (row0 bo) (col0 wi) (i 0 : Fin 8192)
    + be (ix2 (0 : Fin 1) (0 : Fin 1))

/-- The second score column: row `r` is the projected second-layer embedding of row `r` times the second half of the
    edge weight. -/
def G1lj (X A : S8192x256.Idx → EReal) (wa : S256x256.Idx → EReal) (ba : S1x256.Idx → EReal) (wb : S256x256.Idx → EReal)
    (bb : S1x256.Idx → EReal) (wo : S256x256.Idx → EReal) (bo : S1x256.Idx → EReal) (wj : S256x1.Idx → EReal) : S8192x1.Idx → EReal :=
  fun i => scoreAt (n := 8192) X A (mat wa) (row0 ba) (mat wb) (row0 bb) (mat wo) (row0 bo) (col0 wj) (i 0 : Fin 8192)

/-! ## How the windows' block indices move over the grid -/

/-- The two row-blocked inputs and the second output move with the first output along the rows, at column block 0; the
    first output has four row blocks and one column block. -/
theorem idx_rows1 : ∀ t : Fin cfg1.N, win1_0.index t (0 : Fin 2) = win1_11.index t (0 : Fin 2)
    ∧ win1_0.index t (1 : Fin 2) = 0
    ∧ win1_1.index t (0 : Fin 2) = win1_11.index t (0 : Fin 2)
    ∧ win1_1.index t (1 : Fin 2) = 0
    ∧ win1_12.index t (0 : Fin 2) = win1_11.index t (0 : Fin 2)
    ∧ win1_12.index t (1 : Fin 2) = 0
    ∧ win1_11.index t (0 : Fin 2) ≤ 3 ∧ win1_11.index t (1 : Fin 2) = 0 :=
  (by decide +kernel : ∀ t : Fin grid1.N, _)

/-- Window 2 is fetched at block (0, 0) at every grid point. -/
theorem idx_whole1_2 : ∀ t : Fin cfg1.N, win1_2.index t (0 : Fin 2) = 0 ∧ win1_2.index t (1 : Fin 2) = 0 :=
  (by decide +kernel : ∀ t : Fin grid1.N, _)

/-- Window 3 is fetched at block (0, 0) at every grid point. -/
theorem idx_whole1_3 : ∀ t : Fin cfg1.N, win1_3.index t (0 : Fin 2) = 0 ∧ win1_3.index t (1 : Fin 2) = 0 :=
  (by decide +kernel : ∀ t : Fin grid1.N, _)

/-- Window 4 is fetched at block (0, 0) at every grid point. -/
theorem idx_whole1_4 : ∀ t : Fin cfg1.N, win1_4.index t (0 : Fin 2) = 0 ∧ win1_4.index t (1 : Fin 2) = 0 :=
  (by decide +kernel : ∀ t : Fin grid1.N, _)

/-- Window 5 is fetched at block (0, 0) at every grid point. -/
theorem idx_whole1_5 : ∀ t : Fin cfg1.N, win1_5.index t (0 : Fin 2) = 0 ∧ win1_5.index t (1 : Fin 2) = 0 :=
  (by decide +kernel : ∀ t : Fin grid1.N, _)

/-- Window 6 is fetched at block (0, 0) at every grid point. -/
theorem idx_whole1_6 : ∀ t : Fin cfg1.N, win1_6.index t (0 : Fin 2) = 0 ∧ win1_6.index t (1 : Fin 2) = 0 :=
  (by decide +kernel : ∀ t : Fin grid1.N, _)

/-- Window 7 is fetched at block (0, 0) at every grid point. -/
theorem idx_whole1_7 : ∀ t : Fin cfg1.N, win1_7.index t (0 : Fin 2) = 0 ∧ win1_7.index t (1 : Fin 2) = 0 :=
  (by decide +kernel : ∀ t : Fin grid1.N, _)

/-- Window 8 is fetched at block (0, 0) at every grid point. -/
theorem idx_whole1_8 : ∀ t : Fin cfg1.N, win1_8.index t (0 : Fin 2) = 0 ∧ win1_8.index t (1 : Fin 2) = 0 :=
  (by decide +kernel : ∀ t : Fin grid1.N, _)

/-- Window 9 is fetched at block (0, 0) at every grid point. -/
theorem idx_whole1_9 : ∀ t : Fin cfg1.N, win1_9.index t (0 : Fin 2) = 0 ∧ win1_9.index t (1 : Fin 2) = 0 :=
  (by decide +kernel : ∀ t : Fin grid1.N, _)

/-- Window 10 is fetched at block (0, 0) at every grid point. -/
theorem idx_whole1_10 : ∀ t : Fin cfg1.N, win1_10.index t (0 : Fin 2) = 0 ∧ win1_10.index t (1 : Fin 2) = 0 :=
  (by decide +kernel : ∀ t : Fin grid1.N, _)

/-! ## The input blocks read off the arrays -/

/-- Row `p` of the two row-blocked inputs' blocks at point `t` is row `r = 2048·(block index) + p` of the arrays. -/
theorem row_blk1 (c : Dev nD) (t : Fin cfg1.N) (p : Fin 2048) (r : Fin 8192)
    (hr : r.val = win1_11.index t (0 : Fin 2) * 2048 + 1 * p.val) :
    rowSum (iblk1 V c 0 t) (iblk1 V c 1 t) p = rowSum (n := 8192) (K := 256) (V c main_v16) (V c main_v26) r := by
  obtain ⟨e0, e1, e2, e3, e4, e5, e6, e7⟩ := idx_rows1 t
  funext k
  have h0 : iblk1 V c 0 t (ix2 p k) = V c main_v16 (ix2 r k) := by
    show V c main_v16 (((cfg1.win 0).blk t).view.emb (ix2 p k)) = _
    refine congrArg _ (funext fun a => Fin.ext ?_)
    match a with
    | ⟨0, _⟩ => show win1_0.index t (0 : Fin 2) * 2048 + 1 * p.val = r.val; omega
    | ⟨1, _⟩ => show win1_0.index t (1 : Fin 2) * 256 + 1 * k.val = k.val; omega
  have h1 : iblk1 V c 1 t (ix2 p k) = V c main_v26 (ix2 r k) := by
    show V c main_v26 (((cfg1.win 1).blk t).view.emb (ix2 p k)) = _
    refine congrArg _ (funext fun a => Fin.ext ?_)
    match a with
    | ⟨0, _⟩ => show win1_1.index t (0 : Fin 2) * 2048 + 1 * p.val = r.val; omega
    | ⟨1, _⟩ => show win1_1.index t (1 : Fin 2) * 256 + 1 * k.val = k.val; omega
  exact congrArg₂ (fun a b : EReal => a + b) h0 h1

/-- The weight matrix of window 2 is fetched whole at every grid point: its block is the array. -/
theorem blk1_2 (c : Dev nD) (t : Fin cfg1.N) : mat (iblk1 V c 2 t) = mat (a := 256) (b := 256) (V c main_arg6) := by
  obtain ⟨e0, e1⟩ := idx_whole1_2 t
  funext k l
  show V c main_arg6 (((cfg1.win 2).blk t).view.emb (ix2 k l)) = V c main_arg6 (ix2 k l)
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * l.val = l.val; omega

/-- The bias row of window 3 is fetched whole at every grid point: its block is the array. -/
theorem blk1_3 (c : Dev nD) (t : Fin cfg1.N) : row0 (iblk1 V c 3 t) = row0 (n := 256) (V c main_v30) := by
  obtain ⟨e0, e1⟩ := idx_whole1_3 t
  funext l
  show V c main_v30 (((cfg1.win 3).blk t).view.emb (ix2 (0 : Fin 1) l)) = V c main_v30 (ix2 (0 : Fin 1) l)
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * l.val = l.val; omega

/-- The weight matrix of window 4 is fetched whole at every grid point: its block is the array. -/
theorem blk1_4 (c : Dev nD) (t : Fin cfg1.N) : mat (iblk1 V c 4 t) = mat (a := 256) (b := 256) (V c main_arg8) := by
  obtain ⟨e0, e1⟩ := idx_whole1_4 t
  funext k l
  show V c main_arg8 (((cfg1.win 4).blk t).view.emb (ix2 k l)) = V c main_arg8 (ix2 k l)
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * l.val = l.val; omega

/-- The bias row of window 5 is fetched whole at every grid point: its block is the array. -/
theorem blk1_5 (c : Dev nD) (t : Fin cfg1.N) : row0 (iblk1 V c 5 t) = row0 (n := 256) (V c main_v31) := by
  obtain ⟨e0, e1⟩ := idx_whole1_5 t
  funext l
  show V c main_v31 (((cfg1.win 5).blk t).view.emb (ix2 (0 : Fin 1) l)) = V c main_v31 (ix2 (0 : Fin 1) l)
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * l.val = l.val; omega

/-- The weight matrix of window 6 is fetched whole at every grid point: its block is the array. -/
theorem blk1_6 (c : Dev nD) (t : Fin cfg1.N) : mat (iblk1 V c 6 t) = mat (a := 256) (b := 256) (V c main_arg10) := by
  obtain ⟨e0, e1⟩ := idx_whole1_6 t
  funext k l
  show V c main_arg10 (((cfg1.win 6).blk t).view.emb (ix2 k l)) = V c main_arg10 (ix2 k l)
  refine congrArg _ (funext fun a => Fin.ext ?_)
  match a with
  | ⟨0, _⟩ => show win1_6.index t (0 : Fin 2) * 256 + 1 * k.val = k.val; omega
  | ⟨1, _⟩ => show win1_6.index t (1 : Fin 2) * 256 + 1 * l.val = l.val; omega

/-- The bias row of window 7 is fetched whole at every grid point: its block is the array. -/
theorem blk1_7 (c : Dev nD) (t : Fin cfg1.N) : row0 (iblk1 V c 7 t) = row0 (n := 256) (V c main_v32) := by
  obtain ⟨e0, e1⟩ := idx_whole1_7 t
  funext l
  show V c main_v32 (((cfg1.win 7).blk t).view.emb (ix2 (0 : Fin 1) l)) = V c main_v32 (ix2 (0 : Fin 1) l)
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * l.val = l.val; omega

/-- The first half of the edge weight (window 8) is fetched whole at every grid point: its block is the array. -/
theorem blk1_8 (c : Dev nD) (t : Fin cfg1.N) : col0 (iblk1 V c 8 t) = col0 (n := 256) (V c main_v27) := by
  obtain ⟨e0, e1⟩ := idx_whole1_8 t
  funext k
  show V c main_v27 (((cfg1.win 8).blk t).view.emb (ix2 k (0 : Fin 1))) = V c main_v27 (ix2 k (0 : Fin 1))
  refine congrArg _ (funext fun a => Fin.ext ?_)
  match a with
  | ⟨0, _⟩ => show win1_8.index t (0 : Fin 2) * 256 + 1 * k.val = k.val; omega
  | ⟨1, _⟩ => show win1_8.index t (1 : Fin 2) * 1 + 1 * 0 = 0; omega

/-- The second half of the edge weight (window 9) is fetched whole at every grid point: its block is the array. -/
theorem blk1_9 (c : Dev nD) (t : Fin cfg1.N) : col0 (iblk1 V c 9 t) = col0 (n := 256) (V c main_v28) := by
  obtain ⟨e0, e1⟩ := idx_whole1_9 t
  funext k
  show V c main_v28 (((cfg1.win 9).blk t).view.emb (ix2 k (0 : Fin 1))) = V c main_v28 (ix2 k (0 : Fin 1))
  refine congrArg _ (funext fun a => Fin.ext ?_)
  match a with
  | ⟨0, _⟩ => show win1_9.index t (0 : Fin 2) * 256 + 1 * k.val = k.val; omega
  | ⟨1, _⟩ => show win1_9.index t (1 : Fin 2) * 1 + 1 * 0 = 0; omega

/-- The edge bias (window 10) is fetched whole at every grid point: its block's one entry is the array's. -/
theorem blk1_10 (c : Dev nD) (t : Fin cfg1.N) :
    iblk1 V c 10 t (ix2 (0 : Fin 1) (0 : Fin 1)) = V c main_v29 (ix2 (0 : Fin 1) (0 : Fin 1)) := by
  obtain ⟨e0, e1⟩ := idx_whole1_10 t
  show V c main_v29 (((cfg1.win 10).blk t).view.emb (ix2 (0 : Fin 1) (0 : Fin 1))) = V c main_v29 (ix2 (0 : Fin 1) (0 : Fin 1))
  refine congrArg _ (funext fun a => Fin.ext ?_)
  match a with
  | ⟨0, _⟩ => show win1_10.index t (0 : Fin 2) * 1 + 1 * 0 = 0; omega
  | ⟨1, _⟩ => show win1_10.index t (1 : Fin 2) * 1 + 1 * 0 = 0; omega

/-! ## The block's intermediate value and its products -/

/-- The block's projected embedding at (p, q) is the projection of the perceptron of row `r = 2048·(block index) + p` of
    `h + agg`, with the whole weights and biases. -/
theorem proj_blk1 (c : Dev nD) (t : Fin cfg1.N) (p : Fin 2048) (r : Fin 8192)
    (hr : r.val = win1_11.index t (0 : Fin 2) * 2048 + 1 * p.val) (q : Fin 256) :
    k1_pay3 (iblk1 V c 0 t) (iblk1 V c 1 t) (iblk1 V c 2 t) (iblk1 V c 3 t) (iblk1 V c 4 t) (iblk1 V c 5 t) (iblk1 V c 6 t) (iblk1 V c 7 t) (ix2 p q)
      = projAt (n := 8192) (V c main_v16) (V c main_v26) (mat (a := 256) (b := 256) (V c main_arg6)) (row0 (n := 256) (V c main_v30)) (mat (a := 256) (b := 256) (V c main_arg8)) (row0 (n := 256) (V c main_v31)) (mat (a := 256) (b := 256) (V c main_arg10)) (row0 (n := 256) (V c main_v32)) r q := by
  rw [Cert.GinPay.pay1_proj_at]
  unfold projAt layerAt
  rw [row_blk1 V c t p r hr, blk1_2 V c t, blk1_3 V c t, blk1_4 V c t, blk1_5 V c t, blk1_6 V c t, blk1_7 V c t]

/-- The inner product of row `p` of the block's projected embedding with a column `w` is the score of row `r` against `w`. -/
theorem score_blk1 (c : Dev nD) (t : Fin cfg1.N) (p : Fin 2048) (r : Fin 8192)
    (hr : r.val = win1_11.index t (0 : Fin 2) * 2048 + 1 * p.val) (w : S256x1.Idx → EReal) :
    (∑ q : Fin 256, k1_pay3 (iblk1 V c 0 t) (iblk1 V c 1 t) (iblk1 V c 2 t) (iblk1 V c 3 t) (iblk1 V c 4 t) (iblk1 V c 5 t) (iblk1 V c 6 t) (iblk1 V c 7 t) (ix2 p q) * w (ix2 q (0 : Fin 1)))
      = scoreAt (n := 8192) (V c main_v16) (V c main_v26) (mat (a := 256) (b := 256) (V c main_arg6)) (row0 (n := 256) (V c main_v30)) (mat (a := 256) (b := 256) (V c main_arg8)) (row0 (n := 256) (V c main_v31)) (mat (a := 256) (b := 256) (V c main_arg10)) (row0 (n := 256) (V c main_v32)) (col0 w) r := by
  unfold scoreAt
  exact Finset.sum_congr rfl fun q _ => by rw [proj_blk1 V c t p r hr q]

/-! ## The first output -/

/-- What grid point `t` writes back to the first output is block `t` of `G1li` of the arrays the launch reads. -/
theorem flushed1_li (c : Dev nD) (t : Fin cfg1.N) :
    (dat1 V c).flushed 11 t = ((cfg1.win 11).blk t).view.read (Elt Ideal)
      (G1li (V c main_v16) (V c main_v26) (V c main_arg6) (V c main_v30) (V c main_arg8) (V c main_v31) (V c main_arg10) (V c main_v32) (V c main_v27) (V c main_v29)) := by
  show (cfg1.win 11).cut (grid1.coords t) ((dat1 V c).after 11 t) = _
  rw [after1_11]
  unfold out1_11
  rw [View.canon_unit_zero hz]
  simp only [View.ld_unit_zero (S := S2048x256) hz, View.ld_unit_zero (S := S256x256) hz, View.ld_unit_zero (S := S1x256) hz,
    View.ld_unit_zero (S := S256x1) hz, View.ld_unit_zero (S := S1x1) hz]
  funext j
  obtain ⟨p, z, rfl⟩ : ∃ (p : Fin 2048) (z : Fin 1), j = ix2 p z := ⟨j 0, j 1, eq_ix2 j⟩
  obtain rfl : z = 0 := Subsingleton.elim _ _
  show k1_pay1 (k1_pay3 (iblk1 V c 0 t) (iblk1 V c 1 t) (iblk1 V c 2 t) (iblk1 V c 3 t) (iblk1 V c 4 t) (iblk1 V c 5 t) (iblk1 V c 6 t) (iblk1 V c 7 t)) (k1_pay4 (iblk1 V c 8 t)) (iblk1 V c 10 t) (ix2 p (0 : Fin 1))
    = G1li (V c main_v16) (V c main_v26) (V c main_arg6) (V c main_v30) (V c main_arg8) (V c main_v31) (V c main_arg10) (V c main_v32) (V c main_v27) (V c main_v29) (((cfg1.win 11).blk t).view.emb (ix2 p (0 : Fin 1)))
  have hs := score_blk1 V c t p ((((cfg1.win 11).blk t).view.emb (ix2 p (0 : Fin 1))) 0 : Fin 8192)
    (by show win1_11.index t (0 : Fin 2) * 2048 + 1 * p.val = _; rfl) (iblk1 V c 8 t)
  rw [blk1_8 V c t] at hs
  rw [Cert.GinPay.pay1_li_at, Cert.GinPay.pay1_cast]
  unfold G1li
  exact congrArg₂ (fun a b : EReal => a + b) hs (blk1_10 V c t)

/-- Each of the four row blocks of the li output is some grid point's. -/
theorem idx_onto1_li : ∀ (q0 : Fin 4), ∃ t : Fin cfg1.N, win1_11.index t = ![q0.val, 0] :=
  (by decide +kernel : ∀ (q0 : Fin 4), ∃ t : Fin grid1.N, win1_11.index t = ![q0.val, 0])

/-- An index is in point `t`'s block of the li output iff each coordinate is in the block's range. -/
theorem mem_blk1_li (t : Fin cfg1.N) (i : S8192x1.Idx) :
    i ∈ ((cfg1.win 11).blk t).view.set ↔ ∀ a : Fin 2, win1_11.index t a * S2048x1.size a ≤ (i a).val ∧ (i a).val < win1_11.index t a * S2048x1.size a + S2048x1.size a := by
  show i ∈ ((View.whole main_v33_0).slice (win1_11.rect t)).set ↔ _
  rw [View.set_slice_whole, Rect.mem_set_unit]
  exact Iff.rfl

/-- The blocks of the li output cover the array: row `r` is in row block `r / 2048`. -/
theorem cover1_li (i : S8192x1.Idx) : ∃ t : Fin cfg1.N, (cfg1.win 11).flush t = true ∧ i ∈ ((cfg1.win 11).blk t).view.set := by
  have hi0 : (i 0).val < 8192 := (i 0).isLt
  have hi1 : (i 1).val < 1 := (i 1).isLt
  obtain ⟨t, ht⟩ := idx_onto1_li ⟨(i 0).val / 2048, by omega⟩
  have q0 : win1_11.index t (0 : Fin 2) = (i 0).val / 2048 := congrFun ht 0
  have q1 : win1_11.index t (1 : Fin 2) = 0 := congrFun ht 1
  refine ⟨t, flush1_11 t, ?_⟩
  rw [mem_blk1_li]
  intro a
  match a with
  | ⟨0, _⟩ => show win1_11.index t (0 : Fin 2) * 2048 ≤ (i 0).val ∧ (i 0).val < win1_11.index t (0 : Fin 2) * 2048 + 2048; omega
  | ⟨1, _⟩ => show win1_11.index t (1 : Fin 2) * 1 ≤ (i 1).val ∧ (i 1).val < win1_11.index t (1 : Fin 2) * 1 + 1; omega

/-- After the launch the first output array holds `G1li` of the arrays the launch reads. -/
theorem final1_li (c : Dev nD) : (dat1 V c).arrAt 11 cfg1.N
    = G1li (V c main_v16) (V c main_v26) (V c main_arg6) (V c main_v30) (V c main_arg8) (V c main_v31) (V c main_arg10) (V c main_v32) (V c main_v27) (V c main_v29) :=
  (dat1 V c).arrAt_eq_of_cover 11 _ (fun t _ => flushed1_li V c t) cover1_li

/-! ## The second output -/

/-- What grid point `t` writes back to the second output is block `t` of `G1lj` of the arrays the launch reads. -/
theorem flushed1_lj (c : Dev nD) (t : Fin cfg1.N) :
    (dat1 V c).flushed 12 t = ((cfg1.win 12).blk t).view.read (Elt Ideal)
      (G1lj (V c main_v16) (V c main_v26) (V c main_arg6) (V c main_v30) (V c main_arg8) (V c main_v31) (V c main_arg10) (V c main_v32) (V c main_v28)) := by
  show (cfg1.win 12).cut (grid1.coords t) ((dat1 V c).after 12 t) = _
  rw [after1_12]
  unfold out1_12
  rw [View.canon_unit_zero hz]
  simp only [View.ld_unit_zero (S := S2048x256) hz, View.ld_unit_zero (S := S256x256) hz, View.ld_unit_zero (S := S1x256) hz,
    View.ld_unit_zero (S := S256x1) hz]
  obtain ⟨e0, e1, e2, e3, e4, e5, e6, e7⟩ := idx_rows1 t
  funext j
  obtain ⟨p, z, rfl⟩ : ∃ (p : Fin 2048) (z : Fin 1), j = ix2 p z := ⟨j 0, j 1, eq_ix2 j⟩
  obtain rfl : z = 0 := Subsingleton.elim _ _
  show k1_pay2 (k1_pay3 (iblk1 V c 0 t) (iblk1 V c 1 t) (iblk1 V c 2 t) (iblk1 V c 3 t) (iblk1 V c 4 t) (iblk1 V c 5 t) (iblk1 V c 6 t) (iblk1 V c 7 t)) (iblk1 V c 9 t) (ix2 p (0 : Fin 1))
    = G1lj (V c main_v16) (V c main_v26) (V c main_arg6) (V c main_v30) (V c main_arg8) (V c main_v31) (V c main_arg10) (V c main_v32) (V c main_v28) (((cfg1.win 12).blk t).view.emb (ix2 p (0 : Fin 1)))
  have hs := score_blk1 V c t p ((((cfg1.win 12).blk t).view.emb (ix2 p (0 : Fin 1))) 0 : Fin 8192)
    (by show win1_12.index t (0 : Fin 2) * 2048 + 1 * p.val = win1_11.index t (0 : Fin 2) * 2048 + 1 * p.val; omega) (iblk1 V c 9 t)
  rw [blk1_9 V c t] at hs
  rw [Cert.GinPay.pay1_lj_at]
  unfold G1lj
  exact hs

/-- Each of the four row blocks of the lj output is some grid point's. -/
theorem idx_onto1_lj : ∀ (q0 : Fin 4), ∃ t : Fin cfg1.N, win1_12.index t = ![q0.val, 0] :=
  (by decide +kernel : ∀ (q0 : Fin 4), ∃ t : Fin grid1.N, win1_12.index t = ![q0.val, 0])

/-- An index is in point `t`'s block of the lj output iff each coordinate is in the block's range. -/
theorem mem_blk1_lj (t : Fin cfg1.N) (i : S8192x1.Idx) :
    i ∈ ((cfg1.win 12).blk t).view.set ↔ ∀ a : Fin 2, win1_12.index t a * S2048x1.size a ≤ (i a).val ∧ (i a).val < win1_12.index t a * S2048x1.size a + S2048x1.size a := by
  show i ∈ ((View.whole main_v33_1).slice (win1_12.rect t)).set ↔ _
  rw [View.set_slice_whole, Rect.mem_set_unit]
  exact Iff.rfl

/-- The blocks of the lj output cover the array: row `r` is in row block `r / 2048`. -/
theorem cover1_lj (i : S8192x1.Idx) : ∃ t : Fin cfg1.N, (cfg1.win 12).flush t = true ∧ i ∈ ((cfg1.win 12).blk t).view.set := by
  have hi0 : (i 0).val < 8192 := (i 0).isLt
  have hi1 : (i 1).val < 1 := (i 1).isLt
  obtain ⟨t, ht⟩ := idx_onto1_lj ⟨(i 0).val / 2048, by omega⟩
  have q0 : win1_12.index t (0 : Fin 2) = (i 0).val / 2048 := congrFun ht 0
  have q1 : win1_12.index t (1 : Fin 2) = 0 := congrFun ht 1
  refine ⟨t, flush1_12 t, ?_⟩
  rw [mem_blk1_lj]
  intro a
  match a with
  | ⟨0, _⟩ => show win1_12.index t (0 : Fin 2) * 2048 ≤ (i 0).val ∧ (i 0).val < win1_12.index t (0 : Fin 2) * 2048 + 2048; omega
  | ⟨1, _⟩ => show win1_12.index t (1 : Fin 2) * 1 ≤ (i 1).val ∧ (i 1).val < win1_12.index t (1 : Fin 2) * 1 + 1; omega

/-- After the launch the second output array holds `G1lj` of the arrays the launch reads. -/
theorem final1_lj (c : Dev nD) : (dat1 V c).arrAt 12 cfg1.N
    = G1lj (V c main_v16) (V c main_v26) (V c main_arg6) (V c main_v30) (V c main_arg8) (V c main_v31) (V c main_arg10) (V c main_v32) (V c main_v28) :=
  (dat1 V c).arrAt_eq_of_cover 12 _ (fun t _ => flushed1_lj V c t) cover1_lj

end Cert.GinRegion1
end
-- ==== Proof.Region2.lean ====
/-
  The last launch (all-pairs edge scores), from blocks to the whole array.

  The grid is 4 × 4; point (a, b) reads rows [2048 a, 2048 a + 2048) of the column `li` and columns
  [2048 b, 2048 b + 2048) of the row `lj`, and writes block (a, b) of the output: entry (p, q) of the block is
  `li p + lj q` (the payload lemma). So every block is a block of ONE function `G2`: entry (i, j) is `li i + lj j`;
  the sixteen blocks cover the array, hence after the launch the output array IS `G2`.
-/
import proofs.«141162_j76184129896629_2_alg».proof.Proof.Gen.KernelIdeal.Frame
import proofs.«141162_j76184129896629_2_alg».proof.Proof.Spec
import proofs.«141162_j76184129896629_2_alg».proof.Proof.Payload
import Idealize.ShloMosaic.Lib.Pipeline.Value
import Idealize.ShloMosaic.Lib.ValueIdx

set_option maxRecDepth 16384

noncomputable section

open scoped BigOperators

namespace Cert.GinRegion2

open Cert.KernelIdeal Cert.KernelIdeal.Gen Cert.GinSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-2 rectangle. -/
theorem hz : (![0, 0] : Fin 2 → Nat) = fun _ => 0 := funext fun a => by fin_cases a <;> rfl

/-- The edge scores as one function of the column `li` and the row `lj`: entry (i, j) is `li i + lj j`. -/
def G2 (li : S8192x1.Idx → EReal) (lj : S1x8192.Idx → EReal) : S8192x8192.Idx → EReal :=
  fun i => li (ix2 (i 0 : Fin 8192) (0 : Fin 1)) + lj (ix2 (0 : Fin 1) (i 1 : Fin 8192))

/-- How the windows' block indices move over the 4 × 4 grid: the column's block moves with the output's row block, the
    row's block with the output's column block. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 3 ∧ win2_2.index t (1 : Fin 2) ≤ 3 :=
  (by decide +kernel : ∀ t : Fin grid2.N, _)

/-- Each of the sixteen output blocks is some grid point's. -/
theorem idx_onto2 : ∀ (q0 q1 : Fin 4), ∃ t : Fin cfg2.N, win2_2.index t = ![q0.val, q1.val] :=
  (by decide +kernel : ∀ (q0 q1 : Fin 4), ∃ t : Fin grid2.N, win2_2.index t = ![q0.val, q1.val])

/-- What grid point `t` writes back is block `t` of `G2` of the two arrays the launch reads. -/
theorem flushed2 (c : Dev nD) (t : Fin cfg2.N) :
    (dat2 V c).flushed 2 t = ((cfg2.win 2).blk t).view.read (Elt Ideal) (G2 (V c main_v33_0) (V c main_v34)) := by
  show (cfg2.win 2).cut (grid2.coords t) ((dat2 V c).after 2 t) = _
  rw [after2_2]
  unfold out2_2
  rw [View.canon_unit_zero hz]
  simp only [View.ld_unit_zero (S := S2048x1) hz, View.ld_unit_zero (S := S1x2048) hz]
  obtain ⟨e0, e1, e2, e3, e4, e5⟩ := idx_facts2 t
  funext j
  obtain ⟨p, q, rfl⟩ : ∃ (p q : Fin 2048), j = ix2 p q := ⟨j 0, j 1, eq_ix2 j⟩
  show k2_pay1 (iblk2 V c 0 t) (iblk2 V c 1 t) (ix2 p q) = G2 (V c main_v33_0) (V c main_v34) (((cfg2.win 2).blk t).view.emb (ix2 p q))
  rw [Cert.GinPay.pay2_at]
  unfold G2
  have h0 : iblk2 V c 0 t (ix2 p (0 : Fin 1)) = V c main_v33_0 (ix2 ((((cfg2.win 2).blk t).view.emb (ix2 p q)) 0 : Fin 8192) (0 : Fin 1)) := by
    show V c main_v33_0 (((cfg2.win 0).blk t).view.emb (ix2 p (0 : Fin 1))) = _
    refine congrArg _ (funext fun a => Fin.ext ?_)
    match a with
    | ⟨0, _⟩ => show win2_0.index t (0 : Fin 2) * 2048 + 1 * p.val = win2_2.index t (0 : Fin 2) * 2048 + 1 * p.val; omega
    | ⟨1, _⟩ => show win2_0.index t (1 : Fin 2) * 1 + 1 * 0 = 0; omega
  have h1 : iblk2 V c 1 t (ix2 (0 : Fin 1) q) = V c main_v34 (ix2 (0 : Fin 1) ((((cfg2.win 2).blk t).view.emb (ix2 p q)) 1 : Fin 8192)) := by
    show V c main_v34 (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 2048 + 1 * q.val = win2_2.index t (1 : Fin 2) * 2048 + 1 * q.val; omega
  rw [h0, h1]

/-- An index is in point `t`'s output block iff each coordinate is in the block's range. -/
theorem mem_blk2 (t : Fin cfg2.N) (i : S8192x8192.Idx) :
    i ∈ ((cfg2.win 2).blk t).view.set ↔ ∀ a : Fin 2, win2_2.index t a * S2048x2048.size a ≤ (i a).val ∧ (i a).val < win2_2.index t a * S2048x2048.size a + S2048x2048.size a := by
  show i ∈ ((View.whole main_v35).slice (win2_2.rect t)).set ↔ _
  rw [View.set_slice_whole, Rect.mem_set_unit]
  exact Iff.rfl

/-- The output blocks cover the array: entry (i, j) is in block (i / 2048, j / 2048). -/
theorem cover2 (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto2 ⟨(i 0).val / 2048, by omega⟩ ⟨(i 1).val / 2048, by omega⟩
  have q0 : win2_2.index t (0 : Fin 2) = (i 0).val / 2048 := congrFun ht 0
  have q1 : win2_2.index t (1 : Fin 2) = (i 1).val / 2048 := congrFun ht 1
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 2048 ≤ (i 1).val ∧ (i 1).val < win2_2.index t (1 : Fin 2) * 2048 + 2048; omega

/-- After the launch the output array holds `G2` of the two arrays the launch reads. -/
theorem final2 (c : Dev nD) : (dat2 V c).arrAt 2 cfg2.N = G2 (V c main_v33_0) (V c main_v34) :=
  (dat2 V c).arrAt_eq_of_cover 2 (G2 (V c main_v33_0) (V c main_v34)) (fun t _ => flushed2 V c t) cover2

end Cert.GinRegion2
end
-- ==== Proof.RefRead.lean ====
/-
  The reference program read at an index.

  The reference computes, on exact (extended-real) values: the aggregate of the node features over the edges
  (kept opaque here: only its value at an index is used), two graph-isomorphism layers — each the two-layer
  perceptron of the row `x r + agg r`, a dense layer being a matrix product plus a broadcast bias and the rectifier
  a maximum with the program's zero word —, an output projection, the two products with the halves of the edge
  weight, and the outer sum `li i + lj j` plus the edge bias.

  Each stage of the program is read at the index (r, q) from the stage before: a matrix product at (r, q) is the sum
  over k of the left operand at (r, k) times the right one at (k, q); a bias of shape [256] broadcast to [1, 256] and
  then to [8192, 256] is, at (r, q), the bias at q; a slice of rows [o, o + 256) of a column is, at (k, 0), the column
  at (o + k, 0); a transpose swaps the coordinates; a reshape of a [1] array to a scalar keeps its one element. The
  index functions the stage lemmas produce are identified with indices built from coordinates, and the stages are
  chained into the shared specification:

  * `layer0_at`: the first layer's embedding at (r, q) is `layerAt` of the features and their aggregate;
  * `li_at`, `lj_at`: the two edge-score columns at row r are `scoreAt` of the first embedding and its aggregate,
    against rows [0, 256) and [256, 512) of the edge weight;
  * `out_at`: the result at (i, j) is `(li i + lj j) + bias`.
-/
import proofs.«141162_j76184129896629_2_alg».proof.Proof.Gen.ReferenceIdeal.Read
import proofs.«141162_j76184129896629_2_alg».proof.Proof.Spec
import proofs.«141162_j76184129896629_2_alg».proof.Proof.LibPlainDot

noncomputable section

open scoped BigOperators

namespace Cert.GinRef

open Cert.ReferenceIdeal Cert.ReferenceIdeal.Read Cert.GinSpec Idealize.ShloMosaic Idealize.ShloMosaic.ValueIdx

variable (x0 : (⟨S8192x128, .f32⟩ : BufTy).Contents (Elt Ideal)) (x1 : (⟨S2x131072, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S512x1, .f32⟩ : BufTy).Contents (Elt Ideal)) (x13 : (⟨S1, .f32⟩ : BufTy).Contents (Elt Ideal))

/-! ## Index functions as coordinates -/

/-- The left operand of the first product, at output (r, q) and contraction coordinate k, is read at (r, k). -/
theorem lidx15 (r : Fin 8192) (q : Fin 256) (k : Fin 128) : lidx_main_v15 (ix2 r q) k = ix2 r k :=
  funext fun a => Fin.ext (by match a with | ⟨0, _⟩ => rfl | ⟨1, _⟩ => rfl)
/-- … and the right one at (k, q). -/
theorem ridx15 (r : Fin 8192) (q : Fin 256) (k : Fin 128) : ridx_main_v15 (ix2 r q) k = ix2 k q :=
  funext fun a => Fin.ext (by match a with | ⟨0, _⟩ => rfl | ⟨1, _⟩ => rfl)
theorem lidx20 (r : Fin 8192) (q k : Fin 256) : lidx_main_v20 (ix2 r q) k = ix2 r k :=
  funext fun a => Fin.ext (by match a with | ⟨0, _⟩ => rfl | ⟨1, _⟩ => rfl)
theorem ridx20 (r : Fin 8192) (q k : Fin 256) : ridx_main_v20 (ix2 r q) k = ix2 k q :=
  funext fun a => Fin.ext (by match a with | ⟨0, _⟩ => rfl | ⟨1, _⟩ => rfl)

/-! ## The first layer -/

/-- The zero the first rectifier takes the maximum with is the shared zero word, at every index. -/
theorem zero0_at (i : S8192x256.Idx) : val_main_call0_v0 (F := Ideal) i = zero32 := by
  rw [val_main_call0_v0_apply, val_main_call0_cst_apply]; rfl
theorem zero1_at (i : S8192x256.Idx) : val_main_call1_v0 (F := Ideal) i = zero32 := by
  rw [val_main_call1_v0_apply, val_main_call1_cst_apply]; rfl

/-- The features plus their aggregate, at (r, k). -/
theorem v14_at (r : Fin 8192) (k : Fin 128) :
    val_main_v14 (F := Ideal) x0 x1 (ix2 r k) = rowSum x0 (val_main_v13 (F := Ideal) x0 x1) r k := rfl

/-- The first bias broadcast to [8192, 256], at (r, q): the bias at q. -/
theorem v17_at (r : Fin 8192) (q : Fin 256) : val_main_v17 (F := Ideal) x3 (ix2 r q) = vec1 x3 q := by
  rw [val_main_v17_apply, val_main_v16_apply]
  exact congrArg x3 (funext fun a => Fin.ext (by match a with | ⟨0, _⟩ => rfl))
theorem v22_at (r : Fin 8192) (q : Fin 256) : val_main_v22 (F := Ideal) x5 (ix2 r q) = vec1 x5 q := by
  rw [val_main_v22_apply, val_main_v21_apply]
  exact congrArg x5 (funext fun a => Fin.ext (by match a with | ⟨0, _⟩ => rfl))

/-- The first dense layer of the first perceptron, at (r, q). -/
theorem v18_at (r : Fin 8192) (q : Fin 256) :
    val_main_v18 (F := Ideal) x0 x1 x2 x3 (ix2 r q)
      = dense (rowSum x0 (val_main_v13 (F := Ideal) x0 x1) r) (mat x2) (vec1 x3) q := by
  rw [val_main_v18_apply, val_main_v15_apply, v17_at]
  unfold dense
  refine congrArg (· + vec1 x3 q) (Finset.sum_congr rfl fun k _ => ?_)
  rw [lidx15, ridx15, v14_at]

/-- … rectified. -/
theorem v19_at (r : Fin 8192) (q : Fin 256) :
    val_main_v19 (F := Ideal) x0 x1 x2 x3 (ix2 r q) = relu (val_main_v18 (F := Ideal) x0 x1 x2 x3 (ix2 r q)) := by
  rw [val_main_v19_apply, zero0_at]; rfl

/-- The second dense layer of the first perceptron, at (r, q). -/
theorem v23_at (r : Fin 8192) (q : Fin 256) :
    val_main_v23 (F := Ideal) x0 x1 x2 x3 x4 x5 (ix2 r q)
      = dense (fun k : Fin 256 => val_main_v19 (F := Ideal) x0 x1 x2 x3 (ix2 r k)) (mat x4) (vec1 x5) q := by
  rw [val_main_v23_apply, val_main_v20_apply, v22_at]
  unfold dense
  refine congrArg (· + vec1 x5 q) (Finset.sum_congr rfl fun k _ => ?_)
  rw [lidx20, ridx20]

theorem v24_at (r : Fin 8192) (q : Fin 256) :
    val_main_v24 (F := Ideal) x0 x1 x2 x3 x4 x5 (ix2 r q)
      = relu (val_main_v23 (F := Ideal) x0 x1 x2 x3 x4 x5 (ix2 r q)) := by
  rw [val_main_v24_apply, zero1_at]; rfl

/-- The first layer's embedding (the reference's %24) at row r, column q. -/
theorem layer0_at (r : Fin 8192) (q : Fin 256) :
    val_main_v24 (F := Ideal) x0 x1 x2 x3 x4 x5 (ix2 r q)
      = layerAt x0 (val_main_v13 (F := Ideal) x0 x1) (mat x2) (vec1 x3) (mat x4) (vec1 x5) r q := by
  rw [v24_at, v23_at]
  unfold layerAt mlp
  refine congrArg relu (congrArg (fun h => dense h (mat x4) (vec1 x5) q) (funext fun k => ?_))
  rw [v19_at, v18_at]

/-! ## The second layer, the projection and the edge scores -/

theorem lidx36 (r : Fin 8192) (q k : Fin 256) : lidx_main_v36 (ix2 r q) k = ix2 r k :=
  funext fun a => Fin.ext (by match a with | ⟨0, _⟩ => rfl | ⟨1, _⟩ => rfl)
theorem ridx36 (r : Fin 8192) (q k : Fin 256) : ridx_main_v36 (ix2 r q) k = ix2 k q :=
  funext fun a => Fin.ext (by match a with | ⟨0, _⟩ => rfl | ⟨1, _⟩ => rfl)
theorem lidx41 (r : Fin 8192) (q k : Fin 256) : lidx_main_v41 (ix2 r q) k = ix2 r k :=
  funext fun a => Fin.ext (by match a with | ⟨0, _⟩ => rfl | ⟨1, _⟩ => rfl)
theorem ridx41 (r : Fin 8192) (q k : Fin 256) : ridx_main_v41 (ix2 r q) k = ix2 k q :=
  funext fun a => Fin.ext (by match a with | ⟨0, _⟩ => rfl | ⟨1, _⟩ => rfl)
theorem lidx46 (r : Fin 8192) (q k : Fin 256) : lidx_main_v46 (ix2 r q) k = ix2 r k :=
  funext fun a => Fin.ext (by match a with | ⟨0, _⟩ => rfl | ⟨1, _⟩ => rfl)
theorem ridx46 (r : Fin 8192) (q k : Fin 256) : ridx_main_v46 (ix2 r q) k = ix2 k q :=
  funext fun a => Fin.ext (by match a with | ⟨0, _⟩ => rfl | ⟨1, _⟩ => rfl)
/-- A product with a one-column right operand: at output (r, 0) the left operand is read at (r, k), the right at (k, 0). -/
theorem lidx51 (r : Fin 8192) (k : Fin 256) : lidx_main_v51 (ix2 r (0 : Fin 1)) k = ix2 r k :=
  funext fun a => Fin.ext (by match a with | ⟨0, _⟩ => rfl | ⟨1, _⟩ => rfl)
theorem ridx51 (r : Fin 8192) (k : Fin 256) : ridx_main_v51 (ix2 r (0 : Fin 1)) k = ix2 k (0 : Fin 1) :=
  funext fun a => Fin.ext (by match a with | ⟨0, _⟩ => rfl | ⟨1, _⟩ => rfl)
theorem lidx53 (r : Fin 8192) (k : Fin 256) : lidx_main_v53 (ix2 r (0 : Fin 1)) k = ix2 r k :=
  funext fun a => Fin.ext (by match a with | ⟨0, _⟩ => rfl | ⟨1, _⟩ => rfl)
theorem ridx53 (r : Fin 8192) (k : Fin 256) : ridx_main_v53 (ix2 r (0 : Fin 1)) k = ix2 k (0 : Fin 1) :=
  funext fun a => Fin.ext (by match a with | ⟨0, _⟩ => rfl | ⟨1, _⟩ => rfl)

theorem zero2_at (i : S8192x256.Idx) : val_main_call2_v0 (F := Ideal) i = zero32 := by
  rw [val_main_call2_v0_apply, val_main_call2_cst_apply]; rfl
theorem zero3_at (i : S8192x256.Idx) : val_main_call3_v0 (F := Ideal) i = zero32 := by
  rw [val_main_call3_v0_apply, val_main_call3_cst_apply]; rfl

/-- The first embedding plus its aggregate, at (r, k). -/
theorem v35_at (r : Fin 8192) (k : Fin 256) :
    val_main_v35 (F := Ideal) x0 x1 x2 x3 x4 x5 (ix2 r k)
      = rowSum (val_main_v24 (F := Ideal) x0 x1 x2 x3 x4 x5) (val_main_v34 (F := Ideal) x0 x1 x2 x3 x4 x5) r k := rfl

theorem v38_at (r : Fin 8192) (q : Fin 256) : val_main_v38 (F := Ideal) x7 (ix2 r q) = vec1 x7 q := by
  rw [val_main_v38_apply, val_main_v37_apply]
  exact congrArg x7 (funext fun a => Fin.ext (by match a with | ⟨0, _⟩ => rfl))
theorem v43_at (r : Fin 8192) (q : Fin 256) : val_main_v43 (F := Ideal) x9 (ix2 r q) = vec1 x9 q := by
  rw [val_main_v43_apply, val_main_v42_apply]
  exact congrArg x9 (funext fun a => Fin.ext (by match a with | ⟨0, _⟩ => rfl))
theorem v48_at (r : Fin 8192) (q : Fin 256) : val_main_v48 (F := Ideal) x11 (ix2 r q) = vec1 x11 q := by
  rw [val_main_v48_apply, val_main_v47_apply]
  exact congrArg x11 (funext fun a => Fin.ext (by match a with | ⟨0, _⟩ => rfl))

/-- The first dense layer of the second perceptron, at (r, q). -/
theorem v39_at (r : Fin 8192) (q : Fin 256) :
    val_main_v39 (F := Ideal) x0 x1 x2 x3 x4 x5 x6 x7 (ix2 r q)
      = dense (rowSum (val_main_v24 (F := Ideal) x0 x1 x2 x3 x4 x5) (val_main_v34 (F := Ideal) x0 x1 x2 x3 x4 x5) r)
          (mat x6) (vec1 x7) q := by
  rw [val_main_v39_apply, val_main_v36_apply, v38_at]
  unfold dense
  refine congrArg (· + vec1 x7 q) (Finset.sum_congr rfl fun k _ => ?_)
  rw [lidx36, ridx36, v35_at]

theorem v40_at (r : Fin 8192) (q : Fin 256) :
    val_main_v40 (F := Ideal) x0 x1 x2 x3 x4 x5 x6 x7 (ix2 r q)
      = relu (val_main_v39 (F := Ideal) x0 x1 x2 x3 x4 x5 x6 x7 (ix2 r q)) := by
  rw [val_main_v40_apply, zero2_at]; rfl

/-- The second dense layer of the second perceptron, at (r, q). -/
theorem v44_at (r : Fin 8192) (q : Fin 256) :
    val_main_v44 (F := Ideal) x0 x1 x2 x3 x4 x5 x6 x7 x8 x9 (ix2 r q)
      = dense (fun k : Fin 256 => val_main_v40 (F := Ideal) x0 x1 x2 x3 x4 x5 x6 x7 (ix2 r k)) (mat x8) (vec1 x9) q := by
  rw [val_main_v44_apply, val_main_v41_apply, v43_at]
  unfold dense
  refine congrArg (· + vec1 x9 q) (Finset.sum_congr rfl fun k _ => ?_)
  rw [lidx41, ridx41]

theorem v45_at (r : Fin 8192) (q : Fin 256) :
    val_main_v45 (F := Ideal) x0 x1 x2 x3 x4 x5 x6 x7 x8 x9 (ix2 r q)
      = relu (val_main_v44 (F := Ideal) x0 x1 x2 x3 x4 x5 x6 x7 x8 x9 (ix2 r q)) := by
  rw [val_main_v45_apply, zero3_at]; rfl

/-- The second layer's embedding (the reference's %45) at row r, column q. -/
theorem layer1_at (r : Fin 8192) (q : Fin 256) :
    val_main_v45 (F := Ideal) x0 x1 x2 x3 x4 x5 x6 x7 x8 x9 (ix2 r q)
      = layerAt (val_main_v24 (F := Ideal) x0 x1 x2 x3 x4 x5) (val_main_v34 (F := Ideal) x0 x1 x2 x3 x4 x5)
          (mat x6) (vec1 x7) (mat x8) (vec1 x9) r q := by
  rw [v45_at, v44_at]
  unfold layerAt mlp
  refine congrArg relu (congrArg (fun h => dense h (mat x8) (vec1 x9) q) (funext fun k => ?_))
  rw [v40_at, v39_at]

/-- The output projection (the reference's %49) at row r, column q. -/
theorem proj_at (r : Fin 8192) (q : Fin 256) :
    val_main_v49 (F := Ideal) x0 x1 x2 x3 x4 x5 x6 x7 x8 x9 x10 x11 (ix2 r q)
      = projAt (val_main_v24 (F := Ideal) x0 x1 x2 x3 x4 x5) (val_main_v34 (F := Ideal) x0 x1 x2 x3 x4 x5)
          (mat x6) (vec1 x7) (mat x8) (vec1 x9) (mat x10) (vec1 x11) r q := by
  rw [val_main_v49_apply, val_main_v46_apply, v48_at]
  unfold projAt dense
  refine congrArg (· + vec1 x11 q) (Finset.sum_congr rfl fun k _ => ?_)
  rw [lidx46, ridx46, layer1_at]

/-- Rows [0, 256) of the edge weight, at (k, 0). -/
theorem v50_at (k : Fin 256) :
    val_main_v50 (F := Ideal) x12 (ix2 k (0 : Fin 1)) = x12 (ix2 (⟨k.val, by omega⟩ : Fin 512) (0 : Fin 1)) := by
  rw [val_main_v50_apply]
  exact congrArg x12 (funext fun a => Fin.ext (by match a with | ⟨0, _⟩ => rfl | ⟨1, _⟩ => rfl))
/-- Rows [256, 512) of the edge weight, at (k, 0). -/
theorem v52_at (k : Fin 256) :
    val_main_v52 (F := Ideal) x12 (ix2 k (0 : Fin 1)) = x12 (ix2 (⟨256 + k.val, by omega⟩ : Fin 512) (0 : Fin 1)) := by
  rw [val_main_v52_apply]
  exact congrArg x12 (funext fun a => Fin.ext (by match a with | ⟨0, _⟩ => rfl | ⟨1, _⟩ => rfl))

/-- The first edge-score column (the reference's %51 = (second layer, projected) @ w_edge[:256]) at row r. -/
theorem li_at (r : Fin 8192) :
    val_main_v51 (F := Ideal) x0 x1 x2 x3 x4 x5 x6 x7 x8 x9 x10 x11 x12 (ix2 r (0 : Fin 1))
      = scoreAt (val_main_v24 (F := Ideal) x0 x1 x2 x3 x4 x5) (val_main_v34 (F := Ideal) x0 x1 x2 x3 x4 x5)
          (mat x6) (vec1 x7) (mat x8) (vec1 x9) (mat x10) (vec1 x11)
          (fun q : Fin 256 => x12 (ix2 (⟨q.val, by omega⟩ : Fin 512) (0 : Fin 1))) r := by
  rw [val_main_v51_apply]
  unfold scoreAt
  refine Finset.sum_congr rfl fun k _ => ?_
  rw [lidx51, ridx51, proj_at, v50_at]

/-- The second edge-score column (%53, with w_edge[256:]) at row r. -/
theorem lj_at (r : Fin 8192) :
    val_main_v53 (F := Ideal) x0 x1 x2 x3 x4 x5 x6 x7 x8 x9 x10 x11 x12 (ix2 r (0 : Fin 1))
      = scoreAt (val_main_v24 (F := Ideal) x0 x1 x2 x3 x4 x5) (val_main_v34 (F := Ideal) x0 x1 x2 x3 x4 x5)
          (mat x6) (vec1 x7) (mat x8) (vec1 x9) (mat x10) (vec1 x11)
          (fun q : Fin 256 => x12 (ix2 (⟨256 + q.val, by omega⟩ : Fin 512) (0 : Fin 1))) r := by
  rw [val_main_v53_apply]
  unfold scoreAt
  refine Finset.sum_congr rfl fun k _ => ?_
  rw [lidx53, ridx53, proj_at, v52_at]

/-! ## The result -/

/-- The edge bias reshaped to a scalar keeps its one element. -/
theorem v58_at (i : S_.Idx) : val_main_v58 (F := Ideal) x13 i = x13 (ix1 (0 : Fin 1)) := by
  unfold val_main_v58
  refine shapeCast_apply x13 _ i (ix1 (0 : Fin 1)) ?_
  have h1 : (S1.rowMajor (ix1 (0 : Fin 1))).val = 0 := (Shape.rowMajor_val_one _).trans rfl
  have h0 : (S_.rowMajor i).val = 0 := Shape.rowMajorPi_zero _ i
  exact h1.trans h0.symm

/-- The first score column broadcast along the columns: at (i, j) it is read at (i, 0). -/
theorem idx55_eq (i j : Fin 8192) : idx_main_v55 (ix2 i j) = ix2 i (0 : Fin 1) :=
  funext fun a => Fin.ext (by match a with | ⟨0, _⟩ => rfl | ⟨1, _⟩ => rfl)
/-- The second score column transposed and broadcast along the rows: at (i, j) it is read at (j, 0). -/
theorem idx54_eq (i j : Fin 8192) : idx_main_v54 (idx_main_v56 (ix2 i j)) = ix2 j (0 : Fin 1) :=
  funext fun a => Fin.ext (by match a with | ⟨0, _⟩ => rfl | ⟨1, _⟩ => rfl)

/-- The result (%60) at (i, j): (li i + lj j) + bias. -/
theorem out_at (i j : Fin 8192) :
    val_main_v60 (F := Ideal) x0 x1 x2 x3 x4 x5 x6 x7 x8 x9 x10 x11 x12 x13 (ix2 i j)
      = (val_main_v51 (F := Ideal) x0 x1 x2 x3 x4 x5 x6 x7 x8 x9 x10 x11 x12 (ix2 i (0 : Fin 1))
          + val_main_v53 (F := Ideal) x0 x1 x2 x3 x4 x5 x6 x7 x8 x9 x10 x11 x12 (ix2 j (0 : Fin 1)))
        + x13 (ix1 (0 : Fin 1)) := by
  rw [val_main_v60_apply, val_main_v57_apply, val_main_v55_apply, val_main_v56_apply, val_main_v54_apply,
    val_main_v59_apply, idx55_eq, idx54_eq, v58_at]
  rfl

end Cert.GinRef

end
-- ==== Proof.Layout.lean ====
/-
  Five layout operations of the host-side glue, read at an index given by coordinates.

  * A vector of 256 entries reshaped to one row [1, 256]: the row-major position of (0, k) in [1, 256] is k, the position
    of k in [256]; so entry (0, k) of the row is entry k of the vector.
  * A one-entry vector reshaped to [1, 1]: its entry (0, 0) is the vector's entry 0.
  * The rows [o, o + 256) of a [512, 1] column, for o = 0 and o = 256: entry (q, 0) of the slice is entry (o + q, 0) of
    the column.
  * An [8192, 1] column transposed to a [1, 8192] row: entry (0, j) of the row is entry (j, 0) of the column.

  Each is the library's reading of the operation at coordinates, at these extents. The shape relations the operations
  take as evidence are the program's stated facts, so the lemmas hold under them (an instance argument).
-/
import proofs.«141162_j76184129896629_2_alg».proof.KernelIdeal
import Idealize.ShloMosaic.Lib.Pipeline.Value
import Idealize.ShloMosaic.Lib.ValueIdx
import Idealize.ShloMosaic.Lib.ValueLayout

noncomputable section

namespace Cert.GinLayout

open Cert.KernelIdeal Idealize.ShloMosaic Idealize.ShloMosaic.ValueIdx

variable [Facts₀]
open Facts₀

/-- A bias [256] reshaped to one row [1,256]: entry (0, k) is entry k. -/
theorem reshape_row {α : Type} (x : S256.Idx → α) (k : Fin 256) :
    shapeCast S1x256 x shapeCasts_S256_S1x256 (ix2 (0 : Fin 1) k) = x (ix1 k) :=
  shapeCast_a_1a_apply x shapeCasts_S256_S1x256 (0 : Fin 1) k

/-- The edge bias [1] reshaped to [1,1]. -/
theorem reshape_one {α : Type} (x : S1.Idx → α) :
    shapeCast S1x1 x shapeCasts_S1_S1x1 (ix2 (0 : Fin 1) (0 : Fin 1)) = x (ix1 (0 : Fin 1)) :=
  shapeCast_a_1a_apply x shapeCasts_S1_S1x1 (0 : Fin 1) (0 : Fin 1)

/-- Rows [0, 256) of the edge weight [512,1]. -/
theorem slice_lo {α : Type} (x : S512x1.Idx → α) (q : Fin 256) :
    extractStridedSlice S256x1 ![0, 0] x slices_S512x1_S256x1_0_0 (ix2 q (0 : Fin 1))
      = x (ix2 (⟨q.val, by omega⟩ : Fin 512) (0 : Fin 1)) :=
  slice2_axis0_apply 0 x slices_S512x1_S256x1_0_0 q (0 : Fin 1) ⟨q.val, by omega⟩ (Nat.zero_add _).symm

/-- Rows [256, 512) of the edge weight. -/
theorem slice_hi {α : Type} (x : S512x1.Idx → α) (q : Fin 256) :
    extractStridedSlice S256x1 ![256, 0] x slices_S512x1_S256x1_256_0 (ix2 q (0 : Fin 1))
      = x (ix2 (⟨256 + q.val, by omega⟩ : Fin 512) (0 : Fin 1)) :=
  slice2_axis0_apply 256 x slices_S512x1_S256x1_256_0 q (0 : Fin 1) ⟨256 + q.val, by omega⟩ rfl

/-- The column [8192,1] transposed to a row [1,8192]: entry (0, j) is entry (j, 0). -/
theorem transpose_row {α : Type} (x : S8192x1.Idx → α) (j : Fin 8192) :
    transpose S1x8192 [1, 0] x transposes_S8192x1_S1x8192_1_0 (ix2 (0 : Fin 1) j) = x (ix2 j (0 : Fin 1)) :=
  transpose_ix2_apply x transposes_S8192x1_S1x8192_1_0 (0 : Fin 1) j

end Cert.GinLayout

end
-- ==== Proof.Bridge.lean ====
/-
  The idealized kernel's result is the reference's result, as one function of the arguments.

  Reading the three launches from the last to the first:
  * the third launch leaves `li i + lj j` at (i, j), where `li` is the second launch's first output and `lj` its
    second output (transposed by the host);
  * the second launch leaves, at row r, `li r = (∑ q, y r q * w_edge[q]) + b_edge` and `lj r = ∑ q, y r q * w_edge[256 + q]`,
    where `y r` is the output projection of the second layer's perceptron of row r of `x1 + agg1`; the halves of the
    edge weight, the bias rows and the bias entry are layout operations of the arguments;
  * `x1` is what the first launch leaves — the first layer's perceptron of the rows of `x + agg0` — and `agg1` is the
    neighbour aggregate of `x1`: the same scatter-add of the same gather that the reference applies to ITS `x1`.
  The reference computes `x1` by the same formula (read off index by index), hence the two aggregates are the same
  term; it computes `(li' i + lj' j) + b_edge` with `li' = li - b_edge`, and `(a + b) + c = (a + c) + b` on the
  extended reals (commutativity and associativity of addition only: no finiteness is used).
-/
import proofs.«141162_j76184129896629_2_alg».proof.Proof.Glue
import proofs.«141162_j76184129896629_2_alg».proof.Proof.Region0
import proofs.«141162_j76184129896629_2_alg».proof.Proof.Region1
import proofs.«141162_j76184129896629_2_alg».proof.Proof.Region2
import proofs.«141162_j76184129896629_2_alg».proof.Proof.RefRead
import proofs.«141162_j76184129896629_2_alg».proof.Proof.Layout
import proofs.«141162_j76184129896629_2_alg».proof.Proof.Gen.KernelIdeal

set_option maxRecDepth 16384

noncomputable section

open scoped BigOperators

namespace Cert.GinBridge

open Cert.KernelIdeal Cert.KernelIdeal.Gen Cert.GinSpec Cert.GinGlue
open Cert.ReferenceIdeal.Read
open Idealize.ShloMosaic Idealize.ShloMosaic.TcCoe Idealize.ShloMosaic.ValueIdx Idealize.SL.Sem

variable (m : (ℓ : Loc nD τ sig) → Buf (Elt Ideal) ℓ) (ρ : Dev nD → PrngReg)

/-- A bias reshaped to one row, read by its column, is the bias. -/
theorem row0_reshape (x : S256.Idx → EReal) : row0 (shapeCast S1x256 x Facts₀.shapeCasts_S256_S1x256) = vec1 x :=
  funext fun k => Cert.GinLayout.reshape_row x k

/-- The first launch leaves the reference's first-layer embedding. -/
theorem layer0_eq (c : Dev nD) :
    ((dat0 (V1 m ρ) c).arrAt 6 cfg0.N : FVec Ideal Cert.ReferenceIdeal.S8192x256 .f32)
      = val_main_v24 (F := Ideal) (arg m c main_arg0) (arg m c main_arg1) (arg m c main_arg2) (arg m c main_arg3) (arg m c main_arg4) (arg m c main_arg5) := by
  rw [Cert.GinRegion0.final0, V1_arg0, V1_v13, V1_arg2, V1_v14, V1_arg4, V1_v15]
  funext i
  obtain ⟨r, q, rfl⟩ : ∃ (r : Fin 8192) (q : Fin 256), i = ix2 r q := ⟨i 0, i 1, eq_ix2 i⟩
  rw [Cert.GinRef.layer0_at]
  unfold Cert.GinRegion0.G0
  rw [row0_reshape, row0_reshape]

/-- The second launch finds the reference's aggregate of the first-layer embedding. -/
theorem agg1_eq (c : Dev nD) :
    (V3 m ρ c main_v26 : FVec Ideal Cert.ReferenceIdeal.S8192x256 .f32) = val_main_v34 (F := Ideal) (arg m c main_arg0) (arg m c main_arg1) (arg m c main_arg2) (arg m c main_arg3) (arg m c main_arg4) (arg m c main_arg5) := by
  rw [V3_v26, layer0_eq]
  rfl

/-- The second launch's first output at row r: the reference's first score column plus the bias. -/
theorem li_eq (c : Dev nD) (r : Fin 8192) :
    ((dat1 (V3 m ρ) c).arrAt 11 cfg1.N : FVec Ideal Cert.ReferenceIdeal.S8192x1 .f32) (ix2 r (0 : Fin 1))
      = val_main_v51 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (ix2 r (0 : Fin 1)) + (arg m c main_arg13) (ix1 (0 : Fin 1)) := by
  rw [Cert.GinRegion1.final1_li, V3_v16, agg1_eq, V3_arg6, V3_v30, V3_arg8, V3_v31, V3_arg10, V3_v32, V3_v27, V3_v29, layer0_eq,
    Cert.GinRef.li_at]
  unfold Cert.GinRegion1.G1li
  rw [row0_reshape, row0_reshape, row0_reshape, Cert.GinLayout.reshape_one]
  have hw : col0 (extractStridedSlice S256x1 ![0, 0] (arg m c main_arg12) Facts₀.slices_S512x1_S256x1_0_0)
      = fun q : Fin 256 => (arg m c main_arg12) (ix2 (⟨q.val, by omega⟩ : Fin 512) (0 : Fin 1)) :=
    funext fun q => Cert.GinLayout.slice_lo _ q
  rw [hw]

/-- The second launch's second output at row r: the reference's second score column. -/
theorem lj_eq (c : Dev nD) (r : Fin 8192) :
    ((dat1 (V3 m ρ) c).arrAt 12 cfg1.N : FVec Ideal Cert.ReferenceIdeal.S8192x1 .f32) (ix2 r (0 : Fin 1))
      = val_main_v53 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (ix2 r (0 : Fin 1)) := by
  rw [Cert.GinRegion1.final1_lj, V3_v16, agg1_eq, V3_arg6, V3_v30, V3_arg8, V3_v31, V3_arg10, V3_v32, V3_v28, layer0_eq,
    Cert.GinRef.lj_at]
  unfold Cert.GinRegion1.G1lj
  rw [row0_reshape, row0_reshape, row0_reshape]
  have hw : col0 (extractStridedSlice S256x1 ![256, 0] (arg m c main_arg12) Facts₀.slices_S512x1_S256x1_256_0)
      = fun q : Fin 256 => (arg m c main_arg12) (ix2 (⟨256 + q.val, by omega⟩ : Fin 512) (0 : Fin 1)) :=
    funext fun q => Cert.GinLayout.slice_hi _ q
  rw [hw]

/-- THE KERNEL'S RESULT: after the run the result buffer holds the reference's result term of the arguments. -/
theorem result_eq (c : Dev nD) :
    (W6 m ρ c (Proc.devRef .tc main_v35) : FVec Ideal Cert.ReferenceIdeal.S8192x8192 .f32)
      = val_main_v60 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  rw [W6_result, Cert.GinRegion2.final2, V5_li, V5_lj]
  funext i
  obtain ⟨r, s, rfl⟩ : ∃ (r s : Fin 8192), i = ix2 r s := ⟨i 0, i 1, eq_ix2 i⟩
  rw [Cert.GinRef.out_at]
  unfold Cert.GinRegion2.G2
  exact (congrArg₂ (fun a b : EReal => a + b) (li_eq m ρ c r)
    ((Cert.GinLayout.transpose_row _ s).trans (lj_eq m ρ c s))).trans (add_bias_comm _ _ _)

end Cert.GinBridge

end
-- ==== Proof.lean ====
/-
  The certificate: the Pallas graph-network kernel and its jnp reference compute the same edge scores over the
  extended reals.

  Both programs take node features x [8192,128], an edge list [2,131072] and the weights of two graph-isomorphism layers,
  an output projection and an edge scorer. A layer maps h to relu(relu((h + agg h) @ wa + ba) @ wb + bb), where `agg h`
  sums, for each node, the rows of h over its in-neighbours (a gather of the source rows scatter-added at the
  destinations). With x2 the second layer's embedding and y = x2 @ w_out + b_out, the result at (i, j) is
  `y i · w_edge[:256] + y j · w_edge[256:] + b_edge`.

  The kernel computes this in three launches — each layer's perceptron on row blocks of 2048 nodes (the second fused
  with the projection and the two score products, the bias added to the first), then the all-pairs sum on 2048 × 2048
  blocks — with the aggregations and small layout operations on the host between them. At the exact instance the
  matrix unit's products into a zero accumulator are plain sums, the format changes are the identity, and:
  * the frames are the generated ones (the reference's is its generated run with the result dropped);
  * the ideal pass rewrote nothing, so `preserves` is trivial;
  * `algebraic`: the kernel's run ends with the result buffer at what the third launch leaves (KernelRun), which is the
    reference's result term of the arguments (Bridge: each launch's output is one whole-array function of what it reads —
    Region0/1/2 over the payloads' formulas —, the host glue is the reference's own operations — Glue —, and the
    reference's stages read index by index are the same formulas — RefRead); the bias joins the sum in a different order,
    which commutativity and associativity of addition on the extended reals absorb. The precondition is never opened.
-/
import proofs.«141162_j76184129896629_2_alg».proof.Defs
import proofs.«141162_j76184129896629_2_alg».proof.Proof.Gen.Kernel
import proofs.«141162_j76184129896629_2_alg».proof.Proof.Gen.Kernel.Skeleton
import proofs.«141162_j76184129896629_2_alg».proof.Proof.Gen.Kernel.Launch
import proofs.«141162_j76184129896629_2_alg».proof.Proof.Gen.Kernel.Points
import proofs.«141162_j76184129896629_2_alg».proof.Proof.Gen.Kernel.Frame
import proofs.«141162_j76184129896629_2_alg».proof.Proof.Gen.KernelIdeal
import proofs.«141162_j76184129896629_2_alg».proof.Proof.Gen.KernelIdeal.Skeleton
import proofs.«141162_j76184129896629_2_alg».proof.Proof.Gen.KernelIdeal.Launch
import proofs.«141162_j76184129896629_2_alg».proof.Proof.Gen.KernelIdeal.Points
import proofs.«141162_j76184129896629_2_alg».proof.Proof.Gen.KernelIdeal.Frame
import proofs.«141162_j76184129896629_2_alg».proof.Proof.Gen.ReferenceIdeal
import proofs.«141162_j76184129896629_2_alg».proof.Proof.Gen.Pre_finite_inputs
import proofs.«141162_j76184129896629_2_alg».proof.Proof.Gen.ReferenceIdeal.Run
import proofs.«141162_j76184129896629_2_alg».proof.Proof.Gen.ReferenceIdeal.Read
import proofs.«141162_j76184129896629_2_alg».proof.Proof.KernelRun
import proofs.«141162_j76184129896629_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result: the reference's result
    term of the (kernel's) arguments. -/
theorem algebraic : Cert.algebraic_KernelIdeal_ReferenceIdeal := by
  intro m ρ m' ρ' _ hagree
  refine ⟨_, (θ_run Cert.KernelIdeal.defs _ _).mono
    (fun r h c => ⟨(h c).1.trans (Cert.GinBridge.result_eq m ρ c), (h c).2⟩) (Cert.GinRun.run_result (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v60_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
